-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3300000 : Shape := ⟨1, ![3300000]⟩
abbrev S100000x64 : Shape := ⟨2, ![100000, 64]⟩
abbrev S5000x128 : Shape := ⟨2, ![5000, 128]⟩
abbrev S5000x64 : Shape := ⟨2, ![5000, 64]⟩
abbrev S3300000x1 : Shape := ⟨2, ![3300000, 1]⟩
abbrev S3300000x64 : Shape := ⟨2, ![3300000, 64]⟩
abbrev S1x64 : Shape := ⟨2, ![1, 64]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000, .i32⟩
  | .hbm, ⟨43, _⟩ => ⟨S3300000, .i32⟩
  | .hbm, ⟨44, _⟩ => ⟨S3300000, .i32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S3200000_S100000_S3300000_d0 : Shape.Concatenates [S3200000, S100000] S3300000 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x2_S5000x2_1_0_0_1_n_n_wf : DotDims.WF S5000x64 S64x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S3200000x1, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x2, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x2, .f32⟩
  | .hbm, ⟨79, _⟩ => ⟨S3200000x1, .f32⟩
  | .hbm, ⟨80, _⟩ => ⟨S3200000x2, .f32⟩
  | .hbm, ⟨81, _⟩ => ⟨S3200000x2, .f32⟩
  | .hbm, ⟨82, _⟩ => ⟨S_, .f32⟩
  | .hbm, ⟨83, _⟩ => ⟨S100000x2, .f32⟩
  | .hbm, ⟨84, _⟩ => ⟨S3200000x1, .i32⟩
  | .hbm, ⟨85, _⟩ => ⟨S100000x2, .f32⟩
  | .hbm, ⟨86, _⟩ => ⟨S100000x1, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S1x2, .f32⟩
  | .hbm, ⟨91, _⟩ => ⟨S100000x2, .f32⟩
  | .hbm, ⟨92, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x2_S100000x2_1_0_0_1_n_n_wf : DotDims.WF S100000x64 S64x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.KernelRun.lean ====
/-
  The idealized kernel program's run with its RESULT named.

  The program is seven segments: three stretches of host operations and four pipelined regions. The buffer contents
  at each segment boundary are a fold from the launch memory: a stretch applies its operations, a region replaces
  its output array by what its grid points wrote back and keeps every other buffer. At the last boundary every
  unscoped buffer holds that fold's value, so the returned array `main_v63` holds the fold read at `main_v63`, and
  each argument array its launch contents. This is the frame's launch over the segments with one more buffer read
  off the last thread state.
-/
import proofs.«125274_j19645180412674_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the returned array ends at the
    last boundary's contents `W7` read at `main_v63`, and the six argument arrays end as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunNamed

end
-- ==== Proof.LibCat2.lean ====
/-
  A two-piece `concatenate` whose pieces a rewriting pass can reach.

  The library's `concatenate` takes its pieces as a list of (shape, array) pairs together with a fact about that
  list's shapes. The fact's TYPE mentions the list, so a rewriting pass that keeps terms well typed argument by
  argument must leave the list alone: unfolding a line of host operations that holds a `stablehlo.concatenate`
  (for example jax's `jnp.concatenate([edge_index[0], arange(n)])`) stops at its operands, and whatever they read —
  an argument buffer — stays hidden inside them. `cat2` is the same join with the fact stated over the two shapes
  only, so the two arrays are ordinary arguments; add `concatenate_pair` to the set of rewriting lemmas that unfolds
  the line (it holds by `rfl`) and the pass goes on into both pieces. Imports only the Idealize library.
-/
import Idealize.ShloMosaic.PureOps.ShapeOps

noncomputable section

namespace Cert.Lib.Cat2

open Idealize.ShloMosaic

/-- Two arrays joined along an axis, with the fact about the shapes kept apart from the arrays: the library's
    `concatenate` takes the pieces as a list of (shape, array) pairs and a fact about that list's shapes, so the fact
    mentions the arrays' list; here it mentions the two shapes only, and the arrays are ordinary arguments. -/
def cat2 {α : Type} {t : Shape} {a : Fin t.rank} {s₁ s₂ : Shape} (h : Shape.Concatenates [s₁, s₂] t a)
    (x₁ : s₁.Idx → α) (x₂ : s₂.Idx → α) : t.Idx → α :=
  concatenate t a [⟨s₁, x₁⟩, ⟨s₂, x₂⟩] h

/-- A `concatenate` of two pieces is `cat2` of them. -/
theorem concatenate_pair {α : Type} {t : Shape} {a : Fin t.rank} {s₁ s₂ : Shape} (h : Shape.Concatenates [s₁, s₂] t a)
    (x₁ : s₁.Idx → α) (x₂ : s₂.Idx → α) : concatenate t a [⟨s₁, x₁⟩, ⟨s₂, x₂⟩] h = cat2 h x₁ x₂ := rfl

end Cert.Lib.Cat2

end
-- ==== Proof.HostSpec.lean ====
/-
  The kernel program's host side, named.

  Both programs start with the same lines on the edge list `x1 : [2, E]`: the source words (row 0), the destination
  words (row 1), the in-degree plus one, its inverse square root, the per-edge weight `dis[src] · dis[dst]` and the
  per-node weight `1 / deg`. The reference's stages name them as functions of `x1`; they are used here as they
  stand and never opened. The kernel program then appends one self row per node to the edge list: the words
  `0 … N − 1` after the source words and after the destination words, the per-node weights after the per-edge
  weights (`augSrc`, `augDst`, `augW`), and aggregates over the longer list (`aggK64`, `aggK2`).
-/
import proofs.«125274_j19645180412674_2_alg».proof.Proof.Gen.KernelIdeal
import proofs.«125274_j19645180412674_2_alg».proof.Proof.Gen.ReferenceIdeal.Read
import proofs.«125274_j19645180412674_2_alg».proof.Proof.LibCat2
import Idealize.ShloMosaic.PureOps.Ideal

noncomputable section

namespace Cert.Bridge

open Idealize.ShloMosaic Cert.Lib.Cat2

/-- The source words with the nodes' own numbers appended. -/
def augSrc (x1 : (⟨Cert.KernelIdeal.S2x3200000, .i32⟩ : BufTy).Contents (Elt Ideal)) : IVec Cert.KernelIdeal.S3300000 32 :=
  cat2 Cert.KernelIdeal.Facts₀.concatenates_S3200000_S100000_S3300000_d0 (Cert.ReferenceIdeal.Read.val_main_v1 (F := Ideal) x1) (iotaInDim Cert.KernelIdeal.S100000 32 0)

/-- The destination words with the nodes' own numbers appended. -/
def augDst (x1 : (⟨Cert.KernelIdeal.S2x3200000, .i32⟩ : BufTy).Contents (Elt Ideal)) : IVec Cert.KernelIdeal.S3300000 32 :=
  cat2 Cert.KernelIdeal.Facts₀.concatenates_S3200000_S100000_S3300000_d0 (Cert.ReferenceIdeal.Read.val_main_v3 (F := Ideal) x1) (iotaInDim Cert.KernelIdeal.S100000 32 0)

/-- The per-edge weights with the per-node weights appended. -/
def augW (x1 : (⟨Cert.KernelIdeal.S2x3200000, .i32⟩ : BufTy).Contents (Elt Ideal)) : Cert.KernelIdeal.S3300000.Idx → EReal :=
  cat2 Cert.KernelIdeal.Facts₀.concatenates_S3200000_S100000_S3300000_d0 (Cert.ReferenceIdeal.Read.val_main_v25 (F := Ideal) x1) (Cert.ReferenceIdeal.Read.val_main_v27 (F := Ideal) x1)

/-- One layer's aggregation as the kernel program's host lines compute it, over the edge list with the self rows
    appended: rows of the table `P` gathered at the (wrapped) source words, scaled by the weights, and added at
    the destination words into a zero array. -/
def aggK64 (x1 : (⟨Cert.KernelIdeal.S2x3200000, .i32⟩ : BufTy).Contents (Elt Ideal)) (P : Cert.KernelIdeal.S100000x64.Idx → EReal) : Cert.KernelIdeal.S100000x64.Idx → EReal :=
  Host.scatterAdd (F := Ideal) Cert.KernelIdeal.scatter_S100000x64_S3300000x1_S3300000x64_1_0_0_1
    (broadcastInDim Cert.KernelIdeal.S100000x64 ![] Cert.KernelIdeal.Facts₀.bcast_S_S100000x64 (constant (F := Ideal) Cert.KernelIdeal.S_ .f32 0x00000000#32))
    (broadcastInDim Cert.KernelIdeal.S3300000x1 ![0] Cert.KernelIdeal.Facts₀.bcast_S3300000_S3300000x1_0 (augDst x1))
    (mulf (Host.gather Cert.KernelIdeal.gather_S100000x64_S3300000x1_S3300000x64_1_0_n_n_0_1_164 P
            (broadcastInDim Cert.KernelIdeal.S3300000x1 ![0] Cert.KernelIdeal.Facts₀.bcast_S3300000_S3300000x1_0
              (select (cmpi .slt (augSrc x1) (broadcastInDim Cert.KernelIdeal.S3300000 ![] Cert.KernelIdeal.Facts₀.bcast_S_S3300000 (constantI Cert.KernelIdeal.S_ 32 0#32)))
                (addi (augSrc x1) (broadcastInDim Cert.KernelIdeal.S3300000 ![] Cert.KernelIdeal.Facts₀.bcast_S_S3300000 (constantI Cert.KernelIdeal.S_ 32 100000#32)))
                (augSrc x1))))
          (broadcastInDim Cert.KernelIdeal.S3300000x64 ![0, 1] Cert.KernelIdeal.Facts₀.bcast_S3300000x1_S3300000x64_0_1
            (broadcastInDim Cert.KernelIdeal.S3300000x1 ![0] Cert.KernelIdeal.Facts₀.bcast_S3300000_S3300000x1_0 (augW x1))))

/-- One layer's aggregation as the kernel program's host lines compute it, over the edge list with the self rows
    appended: rows of the table `P` gathered at the (wrapped) source words, scaled by the weights, and added at
    the destination words into a zero array. -/
def aggK2 (x1 : (⟨Cert.KernelIdeal.S2x3200000, .i32⟩ : BufTy).Contents (Elt Ideal)) (P : Cert.KernelIdeal.S100000x2.Idx → EReal) : Cert.KernelIdeal.S100000x2.Idx → EReal :=
  Host.scatterAdd (F := Ideal) Cert.KernelIdeal.scatter_S100000x2_S3300000x1_S3300000x2_1_0_0_1
    (broadcastInDim Cert.KernelIdeal.S100000x2 ![] Cert.KernelIdeal.Facts₀.bcast_S_S100000x2 (constant (F := Ideal) Cert.KernelIdeal.S_ .f32 0x00000000#32))
    (broadcastInDim Cert.KernelIdeal.S3300000x1 ![0] Cert.KernelIdeal.Facts₀.bcast_S3300000_S3300000x1_0 (augDst x1))
    (mulf (Host.gather Cert.KernelIdeal.gather_S100000x2_S3300000x1_S3300000x2_1_0_n_n_0_1_12 P
            (broadcastInDim Cert.KernelIdeal.S3300000x1 ![0] Cert.KernelIdeal.Facts₀.bcast_S3300000_S3300000x1_0
              (select (cmpi .slt (augSrc x1) (broadcastInDim Cert.KernelIdeal.S3300000 ![] Cert.KernelIdeal.Facts₀.bcast_S_S3300000 (constantI Cert.KernelIdeal.S_ 32 0#32)))
                (addi (augSrc x1) (broadcastInDim Cert.KernelIdeal.S3300000 ![] Cert.KernelIdeal.Facts₀.bcast_S_S3300000 (constantI Cert.KernelIdeal.S_ 32 100000#32)))
                (augSrc x1))))
          (broadcastInDim Cert.KernelIdeal.S3300000x2 ![0, 1] Cert.KernelIdeal.Facts₀.bcast_S3300000x1_S3300000x2_0_1
            (broadcastInDim Cert.KernelIdeal.S3300000x1 ![0] Cert.KernelIdeal.Facts₀.bcast_S3300000_S3300000x1_0 (augW x1))))

end Cert.Bridge

end
-- ==== Proof.Boundary.lean ====
/-
  The kernel program's buffers at its segment boundaries.

  The run folds the launch memory through seven segments; `W1 … W7` are the buffer contents after each. A host
  stretch leaves in each buffer it writes the value of its operation at the contents before it, and keeps every
  other buffer; a region replaces its output array by what its grid points wrote back and keeps every other buffer.
  Read at the buffers the result depends on: after the first stretch the three appended lists; each region's output
  array; after the second and third stretches the aggregation of the preceding region's output and the bias row.
-/
import proofs.«125274_j19645180412674_2_alg».proof.Proof.KernelRun
import proofs.«125274_j19645180412674_2_alg».proof.Proof.HostSpec
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- One pass over a stretch of host operations: each operation's value at its own result buffer, what was there at
    any other, and a two-piece join with its pieces as ordinary arguments. -/
macro "host_line" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Lib.Cat2.concatenate_pair])

variable (m : (ℓ : Loc nD τ sig) → Buf (Elt Ideal) ℓ) (ρ : Dev nD → PrngReg) (c : Dev nD)

/-! ## After the first stretch -/

theorem W1_v29 : W1 m ρ c (Proc.devRef .tc main_v29) = augSrc (m ((c : Thread nD τ).loc main_arg1)) := by
  show StableHlo.after hostOps0 (W0 m ρ c) (Proc.devRef .tc main_v29) = _
  host_line
  rfl

theorem W1_v30 : W1 m ρ c (Proc.devRef .tc main_v30) = augDst (m ((c : Thread nD τ).loc main_arg1)) := by
  show StableHlo.after hostOps0 (W0 m ρ c) (Proc.devRef .tc main_v30) = _
  host_line
  rfl

theorem W1_v31 : W1 m ρ c (Proc.devRef .tc main_v31) = augW (m ((c : Thread nD τ).loc main_arg1)) := by
  show StableHlo.after hostOps0 (W0 m ρ c) (Proc.devRef .tc main_v31) = _
  host_line
  rfl

theorem W1_arg0 : W1 m ρ c (Proc.devRef .tc main_arg0) = (m ((c : Thread nD τ).loc main_arg0)) := by
  show StableHlo.after hostOps0 (W0 m ρ c) (Proc.devRef .tc main_arg0) = _
  host_line

theorem W1_arg2 : W1 m ρ c (Proc.devRef .tc main_arg2) = (m ((c : Thread nD τ).loc main_arg2)) := by
  show StableHlo.after hostOps0 (W0 m ρ c) (Proc.devRef .tc main_arg2) = _
  host_line

theorem W1_arg3 : W1 m ρ c (Proc.devRef .tc main_arg3) = (m ((c : Thread nD τ).loc main_arg3)) := by
  show StableHlo.after hostOps0 (W0 m ρ c) (Proc.devRef .tc main_arg3) = _
  host_line

theorem W1_arg4 : W1 m ρ c (Proc.devRef .tc main_arg4) = (m ((c : Thread nD τ).loc main_arg4)) := by
  show StableHlo.after hostOps0 (W0 m ρ c) (Proc.devRef .tc main_arg4) = _
  host_line

theorem W1_arg5 : W1 m ρ c (Proc.devRef .tc main_arg5) = (m ((c : Thread nD τ).loc main_arg5)) := by
  show StableHlo.after hostOps0 (W0 m ρ c) (Proc.devRef .tc main_arg5) = _
  host_line

/-! ## After region 0 (the first product) -/

theorem W2_v32 : W2 m ρ c (Proc.devRef .tc main_v32) = (dat0 (V1 m ρ) c).arrAt 2 cfg0.N := W2_arr m ρ c 2
theorem W2_v29 : W2 m ρ c (Proc.devRef .tc main_v29) = W1 m ρ c (Proc.devRef .tc main_v29) := W2_of_ne m ρ c main_v29 (by decide)
theorem W2_v30 : W2 m ρ c (Proc.devRef .tc main_v30) = W1 m ρ c (Proc.devRef .tc main_v30) := W2_of_ne m ρ c main_v30 (by decide)
theorem W2_v31 : W2 m ρ c (Proc.devRef .tc main_v31) = W1 m ρ c (Proc.devRef .tc main_v31) := W2_of_ne m ρ c main_v31 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)

/-! ## After the second stretch (the first aggregation and the first bias row) -/

theorem W3_v45 : W3 m ρ c (Proc.devRef .tc main_v45) = aggK64 (m ((c : Thread nD τ).loc main_arg1)) (W2 m ρ c (Proc.devRef .tc main_v32)) := by
  show StableHlo.after hostOps1 (W2 m ρ c) (Proc.devRef .tc main_v45) = _
  host_line
  rw [W2_v29, W2_v30, W2_v31, W1_v29, W1_v30, W1_v31]
  rfl

theorem W3_v46 : W3 m ρ c (Proc.devRef .tc main_v46)
    = shapeCast S1x64 (m ((c : Thread nD τ).loc main_arg3)) Facts₀.shapeCasts_S64_S1x64 := by
  show StableHlo.after hostOps1 (W2 m ρ c) (Proc.devRef .tc main_v46) = _
  host_line
  rw [W2_arg3, W1_arg3]
  rfl

theorem W3_v29 : W3 m ρ c (Proc.devRef .tc main_v29) = W2 m ρ c (Proc.devRef .tc main_v29) := by
  show StableHlo.after hostOps1 (W2 m ρ c) (Proc.devRef .tc main_v29) = _
  host_line

theorem W3_v30 : W3 m ρ c (Proc.devRef .tc main_v30) = W2 m ρ c (Proc.devRef .tc main_v30) := by
  show StableHlo.after hostOps1 (W2 m ρ c) (Proc.devRef .tc main_v30) = _
  host_line

theorem W3_v31 : W3 m ρ c (Proc.devRef .tc main_v31) = W2 m ρ c (Proc.devRef .tc main_v31) := by
  show StableHlo.after hostOps1 (W2 m ρ c) (Proc.devRef .tc main_v31) = _
  host_line

theorem W3_arg4 : W3 m ρ c (Proc.devRef .tc main_arg4) = W2 m ρ c (Proc.devRef .tc main_arg4) := by
  show StableHlo.after hostOps1 (W2 m ρ c) (Proc.devRef .tc main_arg4) = _
  host_line

theorem W3_arg5 : W3 m ρ c (Proc.devRef .tc main_arg5) = W2 m ρ c (Proc.devRef .tc main_arg5) := by
  show StableHlo.after hostOps1 (W2 m ρ c) (Proc.devRef .tc main_arg5) = _
  host_line

/-! ## After region 1 (bias and rectifier) and region 2 (the second product) -/

theorem W4_v47 : W4 m ρ c (Proc.devRef .tc main_v47) = (dat1 (V3 m ρ) c).arrAt 2 cfg1.N := W4_arr m ρ c 2
theorem W4_v29 : W4 m ρ c (Proc.devRef .tc main_v29) = W3 m ρ c (Proc.devRef .tc main_v29) := W4_of_ne m ρ c main_v29 (by decide)
theorem W4_v30 : W4 m ρ c (Proc.devRef .tc main_v30) = W3 m ρ c (Proc.devRef .tc main_v30) := W4_of_ne m ρ c main_v30 (by decide)
theorem W4_v31 : W4 m ρ c (Proc.devRef .tc main_v31) = W3 m ρ c (Proc.devRef .tc main_v31) := W4_of_ne m ρ c main_v31 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

theorem W5_v48 : W5 m ρ c (Proc.devRef .tc main_v48) = (dat2 (V4 m ρ) c).arrAt 2 cfg2.N := W5_arr m ρ c 2
theorem W5_v29 : W5 m ρ c (Proc.devRef .tc main_v29) = W4 m ρ c (Proc.devRef .tc main_v29) := W5_of_ne m ρ c main_v29 (by decide)
theorem W5_v30 : W5 m ρ c (Proc.devRef .tc main_v30) = W4 m ρ c (Proc.devRef .tc main_v30) := W5_of_ne m ρ c main_v30 (by decide)
theorem W5_v31 : W5 m ρ c (Proc.devRef .tc main_v31) = W4 m ρ c (Proc.devRef .tc main_v31) := W5_of_ne m ρ c main_v31 (by decide)
theorem W5_arg5 : W5 m ρ c (Proc.devRef .tc main_arg5) = W4 m ρ c (Proc.devRef .tc main_arg5) := W5_of_ne m ρ c main_arg5 (by decide)

/-- The appended lists reach the third stretch as the first one left them. -/
theorem W5_v29' : W5 m ρ c (Proc.devRef .tc main_v29) = augSrc (m ((c : Thread nD τ).loc main_arg1)) := by
  rw [W5_v29, W4_v29, W3_v29, W2_v29, W1_v29]
theorem W5_v30' : W5 m ρ c (Proc.devRef .tc main_v30) = augDst (m ((c : Thread nD τ).loc main_arg1)) := by
  rw [W5_v30, W4_v30, W3_v30, W2_v30, W1_v30]
theorem W5_v31' : W5 m ρ c (Proc.devRef .tc main_v31) = augW (m ((c : Thread nD τ).loc main_arg1)) := by
  rw [W5_v31, W4_v31, W3_v31, W2_v31, W1_v31]
theorem W5_arg5' : W5 m ρ c (Proc.devRef .tc main_arg5) = (m ((c : Thread nD τ).loc main_arg5)) := by
  rw [W5_arg5, W4_arg5, W3_arg5, W2_arg5, W1_arg5]
theorem W4_arg4' : W4 m ρ c (Proc.devRef .tc main_arg4) = (m ((c : Thread nD τ).loc main_arg4)) := by
  rw [W4_arg4, W3_arg4, W2_arg4, W1_arg4]

/-! ## After the third stretch (the second aggregation and the second bias row), and region 3 -/

theorem W6_v61 : W6 m ρ c (Proc.devRef .tc main_v61) = aggK2 (m ((c : Thread nD τ).loc main_arg1)) (W5 m ρ c (Proc.devRef .tc main_v48)) := by
  show StableHlo.after hostOps3 (W5 m ρ c) (Proc.devRef .tc main_v61) = _
  host_line
  rw [W5_v29', W5_v30', W5_v31']
  rfl

theorem W6_v62 : W6 m ρ c (Proc.devRef .tc main_v62)
    = shapeCast S1x2 (m ((c : Thread nD τ).loc main_arg5)) Facts₀.shapeCasts_S2_S1x2 := by
  show StableHlo.after hostOps3 (W5 m ρ c) (Proc.devRef .tc main_v62) = _
  host_line
  rw [W5_arg5']
  rfl

theorem W7_v63 : W7 m ρ c (Proc.devRef .tc main_v63) = (dat3 (V6 m ρ) c).arrAt 2 cfg3.N := W7_arr m ρ c 2

end Cert.Bridge

end
-- ==== Proof.RegionArraysFinalize.lean ====
/-
  What the two row-adding regions of the kernel program leave in their output arrays.

  Each of these regions walks its first input array in blocks of 5000 rows, adds to every row of the block the
  one row that is its second input array (region 1 then takes the maximum with zero), and writes the block back
  to the same rows of its output array. Block by block that is ONE function of the two whole input arrays:
  `addRow A b` is `A (p, q) + b (0, q)`, and `reluAddRow A b` is `max (A (p, q) + b (0, q)) 0`. The blocks of
  the twenty grid points tile the output array (row `r` is in the block of point `r / 5000`), so the array ends
  holding that function everywhere.
-/
import proofs.«125274_j19645180412674_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.RegionArrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeros2 : (![0, 0] : Fin 2 → Nat) = fun _ => 0 := funext fun a => by fin_cases a <;> rfl

/-! ## The two whole-array functions -/

/-- A matrix with one row added to each of its rows. -/
def addRow {M N : ℕ} (A : (⟨2, ![M, N]⟩ : Shape).Idx → EReal) (b : (⟨2, ![1, N]⟩ : Shape).Idx → EReal) :
    (⟨2, ![M, N]⟩ : Shape).Idx → EReal :=
  fun j => A j + b (ix2 ⟨0, Nat.one_pos⟩ (j 1))

theorem addRow_apply {M N : ℕ} (A : (⟨2, ![M, N]⟩ : Shape).Idx → EReal) (b : (⟨2, ![1, N]⟩ : Shape).Idx → EReal)
    (p : Fin M) (q : Fin N) : addRow A b (ix2 p q) = A (ix2 p q) + b (ix2 ⟨0, Nat.one_pos⟩ q) := rfl

/-- Adding a row to a block of rows reads, at an index, what adding it to the whole matrix reads at the index
    the block's entry comes from. -/
theorem addRow_congr {M N B : ℕ} (A : (⟨2, ![M, N]⟩ : Shape).Idx → EReal) (b : (⟨2, ![1, N]⟩ : Shape).Idx → EReal)
    (Ab : (⟨2, ![B, N]⟩ : Shape).Idx → EReal) (bb : (⟨2, ![1, N]⟩ : Shape).Idx → EReal)
    (j : (⟨2, ![B, N]⟩ : Shape).Idx) (i : (⟨2, ![M, N]⟩ : Shape).Idx)
    (hA : Ab j = A i) (hb : bb (ix2 ⟨0, Nat.one_pos⟩ (j 1)) = b (ix2 ⟨0, Nat.one_pos⟩ (i 1))) :
    addRow Ab bb j = addRow A b i := by
  show Ab j + bb _ = A i + b _
  rw [hA, hb]

/-- A matrix with one row added to each of its rows, then the maximum with zero entry by entry. -/
def reluAddRow {M N : ℕ} (A : (⟨2, ![M, N]⟩ : Shape).Idx → EReal) (b : (⟨2, ![1, N]⟩ : Shape).Idx → EReal) :
    (⟨2, ![M, N]⟩ : Shape).Idx → EReal :=
  fun j => max (A j + b (ix2 ⟨0, Nat.one_pos⟩ (j 1))) 0

theorem reluAddRow_apply {M N : ℕ} (A : (⟨2, ![M, N]⟩ : Shape).Idx → EReal) (b : (⟨2, ![1, N]⟩ : Shape).Idx → EReal)
    (p : Fin M) (q : Fin N) : reluAddRow A b (ix2 p q) = max (A (ix2 p q) + b (ix2 ⟨0, Nat.one_pos⟩ q)) 0 := rfl

/-- The same for a block of rows against the whole matrix. -/
theorem reluAddRow_congr {M N B : ℕ} (A : (⟨2, ![M, N]⟩ : Shape).Idx → EReal) (b : (⟨2, ![1, N]⟩ : Shape).Idx → EReal)
    (Ab : (⟨2, ![B, N]⟩ : Shape).Idx → EReal) (bb : (⟨2, ![1, N]⟩ : Shape).Idx → EReal)
    (j : (⟨2, ![B, N]⟩ : Shape).Idx) (i : (⟨2, ![M, N]⟩ : Shape).Idx)
    (hA : Ab j = A i) (hb : bb (ix2 ⟨0, Nat.one_pos⟩ (j 1)) = b (ix2 ⟨0, Nat.one_pos⟩ (i 1))) :
    reluAddRow Ab bb j = reluAddRow A b i := by
  show max (Ab j + bb _) 0 = max (A i + b _) 0
  rw [hA, hb]

/-! ## Region 3: a row added to every row of a [100000, 2] array -/

/-- Region 3's body adds the one row it is given to each row of its block. -/
theorem pay3_eq (a : Vec Ideal S5000x2 .f32) (b : Vec Ideal S1x2 .f32) : k3_pay1 a b = addRow a b := by
  funext j
  obtain ⟨p, q, rfl⟩ : ∃ (p : Fin 5000) (q : Fin 2), j = ix2 p q := ⟨j 0, j 1, eq_ix2 j⟩
  unfold k3_pay1
  rw [shapeCast_self, shapeCast_self, addf_apply, broadcastTo_1b_ab_apply]
  rfl

/-- The block indices of region 3's windows at a grid point: the first input and the output are at block row
    `t`, the one-row input always at its only block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `addRow` of the two whole input arrays. -/
theorem flushed3_eq (c : Dev nD) (t : Fin cfg3.N) :
    (dat3 V c).flushed 2 t = ((cfg3.win 2).blk t).view.read (Elt Ideal)
      (addRow (V c main_v61 : S100000x2.Idx → EReal) (V c main_v62 : S1x2.Idx → EReal)) := by
  show (cfg3.win 2).cut (grid3.coords t) ((dat3 V c).after 2 t) = _
  rw [after3_2]
  unfold out3_2
  rw [View.canon_unit_zero zeros2]
  simp only [View.ld_unit_zero (S := S5000x2) zeros2, View.ld_unit_zero (S := S1x2) zeros2]
  rw [pay3_eq]
  obtain ⟨e0, e1, e2, e3, e4, e5⟩ := idx3 t
  funext j
  show addRow (iblk3 V c 0 t : S5000x2.Idx → EReal) (iblk3 V c 1 t : S1x2.Idx → EReal) j
    = addRow (V c main_v61 : S100000x2.Idx → EReal) (V c main_v62 : S1x2.Idx → EReal) (((cfg3.win 2).blk t).view.emb j)
  refine addRow_congr _ _ _ _ j _ ?_ ?_
  · show V c main_v61 (((cfg3.win 0).blk t).view.emb j) = V c main_v61 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 2 + 1 * (j 1).val = win3_2.index t (1 : Fin 2) * 2 + 1 * (j 1).val; omega
  · show V c main_v62 (((cfg3.win 1).blk t).view.emb (ix2 ⟨0, Nat.one_pos⟩ (j 1))) = V c main_v62 (ix2 ⟨0, Nat.one_pos⟩ ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 2 + 1 * (j 1).val = win3_2.index t (1 : Fin 2) * 2 + 1 * (j 1).val; omega

/-- An index of region 3's output array is in point `t`'s block iff each coordinate is in the block's range. -/
theorem mem_blk3 (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v63).slice (win3_2.rect t)).set ↔ _
  rw [View.set_slice_whole, Rect.mem_set_unit]
  exact Iff.rfl

/-- Every index of the output array is in some point's block: row `r` in the block of point `r / 5000`. -/
theorem cover3 (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  let t : Fin cfg3.N := ⟨(i 0).val / 5000, by rw [hN]; omega⟩
  obtain ⟨e0, e1, e2, e3, e4, e5⟩ := idx3 t
  refine ⟨t, flush3_2 t, ?_⟩
  rw [mem_blk3]
  intro a
  have ht : t.val = (i 0).val / 5000 := rfl
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 2 ≤ (i 1).val ∧ (i 1).val < win3_2.index t (1 : Fin 2) * 2 + 2; omega

/-- REGION 3 leaves in its output array its first input array with its second's one row added to every row. -/
theorem array3 (c : Dev nD) : (dat3 V c).arrAt 2 cfg3.N
    = addRow (V c main_v61 : S100000x2.Idx → EReal) (V c main_v62 : S1x2.Idx → EReal) :=
  (dat3 V c).arrAt_eq_of_cover 2 _ (fun t _ => flushed3_eq V c t) cover3

/-! ## Region 1: a row added to every row of a [100000, 64] array, then the maximum with zero -/

/-- Region 1's body adds the one row it is given to each row of its block and takes the maximum with zero. -/
theorem pay1_eq (a : Vec Ideal S5000x64 .f32) (b : Vec Ideal S1x64 .f32) : k1_pay1 a b = reluAddRow a b := by
  funext j
  obtain ⟨p, q, rfl⟩ : ∃ (p : Fin 5000) (q : Fin 64), j = ix2 p q := ⟨j 0, j 1, eq_ix2 j⟩
  unfold k1_pay1
  rw [shapeCast_self, shapeCast_self, maximumf_apply, addf_apply, broadcastTo_1b_ab_apply, broadcast_apply]
  show max _ (Ideal.ofBits .f32 0x00000000#32) = _
  rw [Ideal.ofBits_zero_f32]
  rfl

/-- The block indices of region 1's windows at a grid point: the first input and the output are at block row
    `t`, the one-row input always at its only block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `reluAddRow` of the two whole input arrays. -/
theorem flushed1_eq (c : Dev nD) (t : Fin cfg1.N) :
    (dat1 V c).flushed 2 t = ((cfg1.win 2).blk t).view.read (Elt Ideal)
      (reluAddRow (V c main_v45 : S100000x64.Idx → EReal) (V c main_v46 : S1x64.Idx → EReal)) := by
  show (cfg1.win 2).cut (grid1.coords t) ((dat1 V c).after 2 t) = _
  rw [after1_2]
  unfold out1_2
  rw [View.canon_unit_zero zeros2]
  simp only [View.ld_unit_zero (S := S5000x64) zeros2, View.ld_unit_zero (S := S1x64) zeros2]
  rw [pay1_eq]
  obtain ⟨e0, e1, e2, e3, e4, e5⟩ := idx1 t
  funext j
  show reluAddRow (iblk1 V c 0 t : S5000x64.Idx → EReal) (iblk1 V c 1 t : S1x64.Idx → EReal) j
    = reluAddRow (V c main_v45 : S100000x64.Idx → EReal) (V c main_v46 : S1x64.Idx → EReal) (((cfg1.win 2).blk t).view.emb j)
  refine reluAddRow_congr _ _ _ _ j _ ?_ ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  · show V c main_v46 (((cfg1.win 1).blk t).view.emb (ix2 ⟨0, Nat.one_pos⟩ (j 1))) = V c main_v46 (ix2 ⟨0, Nat.one_pos⟩ ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of region 1's output array is in point `t`'s block iff each coordinate is in the block's range. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every index of the output array is in some point's block: row `r` in the block of point `r / 5000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5⟩ := idx1 t
  refine ⟨t, flush1_2 t, ?_⟩
  rw [mem_blk1]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- REGION 1 leaves in its output array the maximum with zero of its first input array with its second's one row
    added to every row. -/
theorem array1 (c : Dev nD) : (dat1 V c).arrAt 2 cfg1.N
    = reluAddRow (V c main_v45 : S100000x64.Idx → EReal) (V c main_v46 : S1x64.Idx → EReal) :=
  (dat1 V c).arrAt_eq_of_cover 2 _ (fun t _ => flushed1_eq V c t) cover1

end Cert.RegionArrays

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«125274_j19645180412674_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.RegionArraysLinear.lean ====
/-
  What the two matrix-product regions of the kernel program leave in their output arrays.

  Each of these regions walks its first input array in blocks of 5000 rows, multiplies the block by the whole of
  its second input array (rows times columns, into a zero accumulator; the operands' change of float format is
  the identity on the extended reals), and writes the product back to the same rows of its output array. The
  product of a block of rows is those rows of the whole product, and the twenty blocks tile the output array
  (row `r` is in the block of point `r / 5000`), so the array ends holding the product of the two whole arrays.
-/
import proofs.«125274_j19645180412674_2_alg».proof.Proof.Gen.KernelIdeal.Frame
import proofs.«125274_j19645180412674_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.RegionArrays

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd (prod)

variable (V : (c : Dev nD) → (b : Ref sig .tc) → Buf (Elt Ideal) ((c : Thread nD τ).loc b))

/-- The zero offsets of a whole-block access, as the constant function. -/
theorem zeroOffsets : (![0, 0] : Fin 2 → Nat) = fun _ => 0 := funext fun a => by fin_cases a <;> rfl

/-- The product of a block of `B` rows of `l`, starting at row `T * B`, with the right operand, read at an index `j` of
    the block, is the whole product at the index `i` of the whole array that `j` sits at. -/
theorem prod_block {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (j : (⟨2, ![B, N]⟩ : Shape).Idx) (i : (⟨2, ![M, N]⟩ : Shape).Idx)
    (hi0 : (i 0).val = T * B + (j 0).val) (hi1 : (i 1).val = (j 1).val)
    (hl : ∀ k : Fin K, lb (ix2 (j 0) k) = l (ix2 (i 0) k))
    (hr : ∀ k : Fin K, rb (ix2 k (j 1)) = r (ix2 k (j 1))) :
    prod lb rb j = prod l r i := by
  obtain ⟨p, q, rfl⟩ : ∃ (p : Fin B) (q : Fin N), j = ix2 p q := ⟨j 0, j 1, eq_ix2 j⟩
  obtain ⟨a, b, rfl⟩ : ∃ (a : Fin M) (b : Fin N), i = ix2 a b := ⟨i 0, i 1, eq_ix2 i⟩
  change a.val = T * B + p.val at hi0
  change b.val = q.val at hi1
  have h : T * B + p.val < M := hi0 ▸ a.isLt
  obtain rfl : a = ⟨T * B + p.val, h⟩ := Fin.ext hi0
  obtain rfl : b = q := Fin.ext hi1
  exact Cert.Lib.MatProd.prod_rows l r lb rb T p b h hl hr

/-! ## Region 0: [100000, 128] times [128, 64] -/

/-- Region 0's body is the product of its block of rows with the right operand. -/
theorem pay0_eq (x : Vec Ideal S5000x128 .f32) (w : Vec Ideal S128x64 .f32) :
    k0_pay1 x w = prod (x : S5000x128.Idx → EReal) (w : S128x64.Idx → EReal) := by
  unfold k0_pay1
  exact Cert.Lib.MatProd.matmul_zero_eq_prod dot_S5000x128_S128x64_S5000x64_1_0_0_1_n_n rfl rfl
    (fun j q => by
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl)
    (fun j q => dot_S5000x128_S128x64_S5000x64_1_0_0_1_n_n.lhsIdx_val_of_single rfl j q)
    (fun j q => dot_S5000x128_S128x64_S5000x64_1_0_0_1_n_n.rhsIdx_val_of_single rfl j q)
    (fun j q => by
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)
    none (truncf .bf16 x bitsLt_bf16_f32) (truncf .bf16 w bitsLt_bf16_f32)

/-- The block indices of region 0's windows at a grid point: the left operand and the output are at block row
    `t`, the right operand always at its only block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two whole input arrays. -/
theorem flushed0_eq (c : Dev nD) (t : Fin cfg0.N) :
    (dat0 V c).flushed 2 t = ((cfg0.win 2).blk t).view.read (Elt Ideal)
      (prod (V c main_arg0 : S100000x128.Idx → EReal) (V c main_arg2 : S128x64.Idx → EReal)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  rw [pay0_eq]
  obtain ⟨e0, e1, e2, e3, e4, e5⟩ := idx0 t
  funext j
  show prod (iblk0 V c 0 t : S5000x128.Idx → EReal) (iblk0 V c 1 t : S128x64.Idx → EReal) j
    = prod (V c main_arg0 : S100000x128.Idx → EReal) (V c main_arg2 : S128x64.Idx → EReal) (((cfg0.win 2).blk t).view.emb j)
  refine prod_block _ _ _ _ t.val j _ ?_ ?_ (fun k => ?_) (fun k => ?_)
  · show win0_2.index t (0 : Fin 2) * 5000 + 1 * (j 0).val = t.val * 5000 + (j 0).val; omega
  · show win0_2.index t (1 : Fin 2) * 64 + 1 * (j 1).val = (j 1).val; omega
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k (j 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = (j 1).val; omega

/-- An index of region 0's output array is in point `t`'s block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every index of the output array is in some point's block: row `r` in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx0 t
  refine ⟨t, flush0_2 t, ?_⟩
  rw [mem_blk0]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- REGION 0 leaves in its output array the product of its two input arrays. -/
theorem array0 (c : Dev nD) : (dat0 V c).arrAt 2 cfg0.N
    = prod (V c main_arg0 : S100000x128.Idx → EReal) (V c main_arg2 : S128x64.Idx → EReal) :=
  (dat0 V c).arrAt_eq_of_cover 2 _ (fun t _ => flushed0_eq V c t) cover0

/-! ## Region 2: [100000, 64] times [64, 2] -/

/-- Region 2's body is the product of its block of rows with the right operand. -/
theorem pay2_eq (x : Vec Ideal S5000x64 .f32) (w : Vec Ideal S64x2 .f32) :
    k2_pay1 x w = prod (x : S5000x64.Idx → EReal) (w : S64x2.Idx → EReal) := by
  unfold k2_pay1
  rw [shapeCast_self]
  exact Cert.Lib.MatProd.matmul_zero_eq_prod dot_S5000x64_S64x2_S5000x2_1_0_0_1_n_n rfl rfl
    (fun j q => by
      unfold DotDims.lhsIdx
      rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
      rfl)
    (fun j q => dot_S5000x64_S64x2_S5000x2_1_0_0_1_n_n.lhsIdx_val_of_single rfl j q)
    (fun j q => dot_S5000x64_S64x2_S5000x2_1_0_0_1_n_n.rhsIdx_val_of_single rfl j q)
    (fun j q => by
      unfold DotDims.rhsIdx
      rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
      rfl)
    none (truncf .bf16 x bitsLt_bf16_f32) (truncf .bf16 w bitsLt_bf16_f32)

/-- The block indices of region 2's windows at a grid point: the left operand and the output are at block row
    `t`, the right operand always at its only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the product of the two whole input arrays. -/
theorem flushed2_eq (c : Dev nD) (t : Fin cfg2.N) :
    (dat2 V c).flushed 2 t = ((cfg2.win 2).blk t).view.read (Elt Ideal)
      (prod (V c main_v47 : S100000x64.Idx → EReal) (V c main_arg4 : S64x2.Idx → EReal)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x2) zeroOffsets]
  rw [pay2_eq]
  obtain ⟨e0, e1, e2, e3, e4, e5⟩ := idx2 t
  funext j
  show prod (iblk2 V c 0 t : S5000x64.Idx → EReal) (iblk2 V c 1 t : S64x2.Idx → EReal) j
    = prod (V c main_v47 : S100000x64.Idx → EReal) (V c main_arg4 : S64x2.Idx → EReal) (((cfg2.win 2).blk t).view.emb j)
  refine prod_block _ _ _ _ t.val j _ ?_ ?_ (fun k => ?_) (fun k => ?_)
  · show win2_2.index t (0 : Fin 2) * 5000 + 1 * (j 0).val = t.val * 5000 + (j 0).val; omega
  · show win2_2.index t (1 : Fin 2) * 2 + 1 * (j 1).val = (j 1).val; omega
  · show V c main_v47 (((cfg2.win 0).blk t).view.emb (ix2 (j 0) k)) = V c main_v47 (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · show V c main_arg4 (((cfg2.win 1).blk t).view.emb (ix2 k (j 1))) = V c main_arg4 (ix2 k (j 1))
    refine congrArg _ (funext fun a => Fin.ext ?_)
    match a with
    | ⟨0, _⟩ => show win2_1.index t (0 : Fin 2) * 64 + 1 * k.val = k.val; omega
    | ⟨1, _⟩ => show win2_1.index t (1 : Fin 2) * 2 + 1 * (j 1).val = (j 1).val; omega

/-- An index of region 2's output array is in point `t`'s block iff each coordinate is in the block's range. -/
theorem mem_blk2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v48).slice (win2_2.rect t)).set ↔ _
  rw [View.set_slice_whole, Rect.mem_set_unit]
  exact Iff.rfl

/-- Every index of the output array is in some point's block: row `r` in the block of point `r / 5000`. -/
theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  let t : Fin cfg2.N := ⟨(i 0).val / 5000, by rw [hN]; omega⟩
  obtain ⟨e0, e1, e2, e3, e4, e5⟩ := idx2 t
  refine ⟨t, flush2_2 t, ?_⟩
  rw [mem_blk2]
  intro a
  have ht : t.val = (i 0).val / 5000 := rfl
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- REGION 2 leaves in its output array the product of its two input arrays. -/
theorem array2 (c : Dev nD) : (dat2 V c).arrAt 2 cfg2.N
    = prod (V c main_v47 : S100000x64.Idx → EReal) (V c main_arg4 : S64x2.Idx → EReal) :=
  (dat2 V c).arrAt_eq_of_cover 2 _ (fun t _ => flushed2_eq V c t) cover2

end Cert.RegionArrays

end
-- ==== Proof.RegionArrays.lean ====
/-
  What each of the kernel program's four regions leaves in its output array, as one function of the region's
  two whole input arrays: a matrix product for the two linear regions (`array0`, `array2`), a row added to
  every row — and, in region 1, the maximum with zero — for the two finalize regions (`array1`, `array3`).
-/
import proofs.«125274_j19645180412674_2_alg».proof.Proof.RegionArraysFinalize
import proofs.«125274_j19645180412674_2_alg».proof.Proof.RegionArraysLinear
-- ==== Proof.NetSpec.lean ====
/-
  The two-layer network as one function of the six argument arrays, in the kernel program's arrangement:
  product with the first weights; aggregation over the edge list with the self rows appended; first bias row and
  rectifier; product with the second weights; the same aggregation; second bias row.
-/
import proofs.«125274_j19645180412674_2_alg».proof.Proof.HostSpec
import proofs.«125274_j19645180412674_2_alg».proof.Proof.RegionArraysFinalize
import proofs.«125274_j19645180412674_2_alg».proof.Proof.LibMatProd

noncomputable section

namespace Cert.Bridge

open Cert.KernelIdeal
open Idealize.ShloMosaic Cert.Lib.MatProd Cert.RegionArrays

/-- The network's output array from the arguments' contents. -/
def kernelOut (x0 : S100000x128.Idx → EReal) (x1 : (⟨S2x3200000, .i32⟩ : BufTy).Contents (Elt Ideal))
    (x2 : S128x64.Idx → EReal) (x3 : S64.Idx → EReal) (x4 : S64x2.Idx → EReal) (x5 : S2.Idx → EReal) :
    S100000x2.Idx → EReal :=
  addRow (M := 100000) (N := 2)
    (aggK2 x1 (prod (M := 100000) (K := 64) (N := 2)
      (reluAddRow (M := 100000) (N := 64) (aggK64 x1 (prod (M := 100000) (K := 128) (N := 64) x0 x2))
        (shapeCast S1x64 x3 Facts₀.shapeCasts_S64_S1x64))
      x4))
    (shapeCast S1x2 x5 Facts₀.shapeCasts_S2_S1x2)

end Cert.Bridge

end
-- ==== Proof.KernelValue.lean ====
/-
  The kernel program's returned array as one function of the six argument arrays.

  Reading the fold from the last boundary backwards: the last region adds the second bias row to the second
  aggregation; that aggregates the second product; whose left factor is the first region pair's output, the
  rectified sum of the first aggregation and the first bias row; which aggregates the first product of the node
  features with the first weights.
-/
import proofs.«125274_j19645180412674_2_alg».proof.Proof.Boundary
import proofs.«125274_j19645180412674_2_alg».proof.Proof.RegionArrays
import proofs.«125274_j19645180412674_2_alg».proof.Proof.NetSpec

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Lib.MatProd Cert.RegionArrays

variable (m : (ℓ : Loc nD τ sig) → Buf (Elt Ideal) ℓ) (ρ : Dev nD → PrngReg) (c : Dev nD)

theorem first_product : W2 m ρ c (Proc.devRef .tc main_v32) = prod (M := 100000) (K := 128) (N := 64) (m ((c : Thread nD τ).loc main_arg0)) (m ((c : Thread nD τ).loc main_arg2)) := by
  rw [W2_v32, array0 (V1 m ρ) c]
  show prod (W1 m ρ c (Proc.devRef .tc main_arg0)) (W1 m ρ c (Proc.devRef .tc main_arg2)) = _
  rw [W1_arg0, W1_arg2]

theorem first_layer : W4 m ρ c (Proc.devRef .tc main_v47)
    = reluAddRow (M := 100000) (N := 64) (aggK64 (m ((c : Thread nD τ).loc main_arg1)) (prod (M := 100000) (K := 128) (N := 64) (m ((c : Thread nD τ).loc main_arg0)) (m ((c : Thread nD τ).loc main_arg2))))
        (shapeCast S1x64 (m ((c : Thread nD τ).loc main_arg3)) Facts₀.shapeCasts_S64_S1x64) := by
  rw [W4_v47, array1 (V3 m ρ) c]
  show reluAddRow (W3 m ρ c (Proc.devRef .tc main_v45)) (W3 m ρ c (Proc.devRef .tc main_v46)) = _
  rw [W3_v45, W3_v46, first_product]

theorem second_product : W5 m ρ c (Proc.devRef .tc main_v48)
    = prod (M := 100000) (K := 64) (N := 2)
        (reluAddRow (M := 100000) (N := 64) (aggK64 (m ((c : Thread nD τ).loc main_arg1)) (prod (M := 100000) (K := 128) (N := 64) (m ((c : Thread nD τ).loc main_arg0)) (m ((c : Thread nD τ).loc main_arg2))))
          (shapeCast S1x64 (m ((c : Thread nD τ).loc main_arg3)) Facts₀.shapeCasts_S64_S1x64)) (m ((c : Thread nD τ).loc main_arg4)) := by
  rw [W5_v48, array2 (V4 m ρ) c]
  show prod (W4 m ρ c (Proc.devRef .tc main_v47)) (W4 m ρ c (Proc.devRef .tc main_arg4)) = _
  rw [first_layer, W4_arg4']

/-- The returned array at the last boundary is `kernelOut` of the launch contents of the arguments. -/
theorem kernel_value : W7 m ρ c (Proc.devRef .tc main_v63) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W7_v63, array3 (V6 m ρ) c]
  show addRow (W6 m ρ c (Proc.devRef .tc main_v61)) (W6 m ρ c (Proc.devRef .tc main_v62)) = _
  rw [W6_v61, W6_v62, second_product]
  rfl

end Cert.Bridge

end
-- ==== Proof.RefDense.lean ====
/-
  The reference program's dense stages in the kernel's terms.

  At the ideal values the reference's `dot_general` is the plain matrix product; its bias, broadcast from a vector
  to a row and then over the rows, adds to entry `(n, c)` the vector's entry `c` — which is what the kernel's bias
  row (the same vector recast as one row) adds; and its rectifier is the maximum with zero.
-/
import proofs.«125274_j19645180412674_2_alg».proof.Proof.HostSpec
import proofs.«125274_j19645180412674_2_alg».proof.Proof.RegionArraysFinalize
import proofs.«125274_j19645180412674_2_alg».proof.Proof.LibMatProd
import Idealize.ShloMosaic.Lib.ValueLayout
import Idealize.ShloMosaic.PureOps.Ideal.Laws

noncomputable section

namespace Cert.Bridge

open Idealize.ShloMosaic Idealize.ShloMosaic.ValueIdx Cert.Lib.MatProd Cert.RegionArrays
open Cert.ReferenceIdeal.Read

/-- The first layer's transform is rows times columns. -/
theorem ref_prod1 (x0 : (⟨Cert.ReferenceIdeal.S100000x128, .f32⟩ : BufTy).Contents (Elt Ideal)) (x2 : (⟨Cert.ReferenceIdeal.S128x64, .f32⟩ : BufTy).Contents (Elt Ideal)) :
    val_main_v28 (F := Ideal) x0 x2 = prod (M := 100000) (K := 128) (N := 64) x0 x2 :=
  dotGeneral_eq_prod Cert.ReferenceIdeal.dot_S100000x128_S128x64_S100000x64_1_0_0_1_n_n rfl rfl
    lhs_main_v28_0 lhs_main_v28_1 rhs_main_v28_0 rhs_main_v28_1 none x0 x2

/-- The second layer's transform is rows times columns. -/
theorem ref_prod2 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (x4 : (⟨Cert.ReferenceIdeal.S64x2, .f32⟩ : BufTy).Contents (Elt Ideal)) :
    val_main_v50 (F := Ideal) x0 x1 x2 x3 x4
      = prod (M := 100000) (K := 64) (N := 2) (val_main_v49 (F := Ideal) x0 x1 x2 x3) x4 :=
  dotGeneral_eq_prod Cert.ReferenceIdeal.dot_S100000x64_S64x2_S100000x2_1_0_0_1_n_n rfl rfl
    lhs_main_v50_0 lhs_main_v50_1 rhs_main_v50_0 rhs_main_v50_1 none _ x4

/-- The first layer's bias and rectifier: entry `(n, c)` is `max (a (n, c) + b c) 0`. -/
theorem ref_relu (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) :
    val_main_v49 (F := Ideal) x0 x1 x2 x3
      = reluAddRow (M := 100000) (N := 64) (val_main_v45 (F := Ideal) x0 x1 x2)
          (shapeCast Cert.KernelIdeal.S1x64 x3 Cert.KernelIdeal.Facts₀.shapeCasts_S64_S1x64) := by
  funext i
  obtain ⟨p, q, rfl⟩ : ∃ (p : Fin 100000) (q : Fin 64), i = ix2 p q := ⟨i 0, i 1, eq_ix2 i⟩
  have hi : idx_main_v46 (idx_main_v47 (ix2 p q)) = ix1 q :=
    funext fun a => Fin.ext (by match a with | ⟨0, _⟩ => rfl)
  have hb : shapeCast Cert.KernelIdeal.S1x64 x3 Cert.KernelIdeal.Facts₀.shapeCasts_S64_S1x64 (ix2 ⟨0, Nat.one_pos⟩ q) = x3 (ix1 q) :=
    shapeCast_a_1a_apply x3 _ _ q
  calc val_main_v49 (F := Ideal) x0 x1 x2 x3 (ix2 p q)
      = max (val_main_v45 (F := Ideal) x0 x1 x2 (ix2 p q) + x3 (ix1 q)) 0 := by
        rw [val_main_v49_apply, val_main_v48_apply, val_main_v47_apply, val_main_v46_apply, val_main_call0_v0_apply,
          val_main_call0_cst_apply, hi]
        simp only [Ideal.maximumf_def, Ideal.addf_def]
        rw [show (FloatOps.ofBits (F := Ideal) .f32 0x00000000#32 : EReal) = 0 from Ideal.ofBits_zero_f32]
    _ = reluAddRow (M := 100000) (N := 64) (val_main_v45 (F := Ideal) x0 x1 x2)
          (shapeCast Cert.KernelIdeal.S1x64 x3 Cert.KernelIdeal.Facts₀.shapeCasts_S64_S1x64) (ix2 p q) := by
        rw [← hb]; rfl

/-- The second layer's bias: entry `(n, c)` is `a (n, c) + b c`. -/
theorem ref_bias2 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (x4 : (⟨Cert.ReferenceIdeal.S64x2, .f32⟩ : BufTy).Contents (Elt Ideal)) (x5 : (⟨Cert.ReferenceIdeal.S2, .f32⟩ : BufTy).Contents (Elt Ideal)) :
    val_main_v70 (F := Ideal) x0 x1 x2 x3 x4 x5
      = addRow (M := 100000) (N := 2) (val_main_v67 (F := Ideal) x0 x1 x2 x3 x4)
          (shapeCast Cert.KernelIdeal.S1x2 x5 Cert.KernelIdeal.Facts₀.shapeCasts_S2_S1x2) := by
  funext i
  obtain ⟨p, q, rfl⟩ : ∃ (p : Fin 100000) (q : Fin 2), i = ix2 p q := ⟨i 0, i 1, eq_ix2 i⟩
  have hi : idx_main_v68 (idx_main_v69 (ix2 p q)) = ix1 q :=
    funext fun a => Fin.ext (by match a with | ⟨0, _⟩ => rfl)
  have hb : shapeCast Cert.KernelIdeal.S1x2 x5 Cert.KernelIdeal.Facts₀.shapeCasts_S2_S1x2 (ix2 ⟨0, Nat.one_pos⟩ q) = x5 (ix1 q) :=
    shapeCast_a_1a_apply x5 _ _ q
  calc val_main_v70 (F := Ideal) x0 x1 x2 x3 x4 x5 (ix2 p q)
      = val_main_v67 (F := Ideal) x0 x1 x2 x3 x4 (ix2 p q) + x5 (ix1 q) := by
        rw [val_main_v70_apply, val_main_v69_apply, val_main_v68_apply, hi]
        simp only [Ideal.addf_def]
    _ = addRow (M := 100000) (N := 2) (val_main_v67 (F := Ideal) x0 x1 x2 x3 x4)
          (shapeCast Cert.KernelIdeal.S1x2 x5 Cert.KernelIdeal.Facts₀.shapeCasts_S2_S1x2) (ix2 p q) := by
        rw [← hb]; rfl

end Cert.Bridge

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.SelfLoops.lean ====
/-
  Self edges appended to the edge list.

  A graph convolution sums, at node `n` and column `c`, over all edges `e` that end in `n`, the table row of the
  edge's start node times the edge's weight, and adds the node's own row times the node's weight. One program does
  exactly that. The other appends one "self edge" `i → i` per node `i`, of weight the node's weight, to the edge
  list, and takes the one sum over the longer list. The two are equal: the long sum splits into its first `E` places,
  where each term is the first program's term, and its last `N` places, where place `E + i` starts and ends at node
  `i`, so that the indicator `[i = n]` leaves the single term of node `n`. Only associativity of `+` is used.
-/
import proofs.«125274_j19645180412674_2_alg».proof.Proof.Gen.KernelIdeal
import proofs.«125274_j19645180412674_2_alg».proof.Proof.Gen.ReferenceIdeal
import proofs.«125274_j19645180412674_2_alg».proof.Proof.LibRowGatherScatter
import Idealize.ShloMosaic.PureOps.Ideal
import Idealize.ShloMosaic.Lib.ValueIdx
import Idealize.ShloMosaic.Lib.IdealHost
import Idealize.ShloMosaic.Lib.Pipeline.Value

noncomputable section

open scoped BigOperators

namespace Cert.SelfLoops

open Idealize.ShloMosaic Idealize.ShloMosaic.ValueIdx Cert.Lib.RowGatherScatter

/-! ## The places of the longer list -/

section Places

variable {N E S : ℕ}

/-- Edge `e`'s place in the longer list: the same number. -/
def inl (hS : E + N = S) (e : Fin E) : Fin S := ⟨e.val, by have := e.isLt; omega⟩

/-- Node `i`'s self edge's place in the longer list: `E + i`. -/
def inr (hS : E + N = S) (i : Fin N) : Fin S := ⟨E + i.val, by have := i.isLt; omega⟩

/-- A sum over the longer list is the sum over the edges plus the sum over the self edges. -/
theorem sum_aug (hS : E + N = S) {M : Type} [AddCommMonoid M] (f : Fin S → M) :
    ∑ p : Fin S, f p = ∑ e : Fin E, f (inl hS e) + ∑ i : Fin N, f (inr hS i) := by
  subst hS
  rw [Fin.sum_univ_add]
  rfl

/-- Two pieces concatenated along their one axis, read at an edge's place: the first piece there. -/
theorem concat_inl (hS : E + N = S) {α : Type}
    (cc : Shape.Concatenates [(⟨1, ![E]⟩ : Shape), (⟨1, ![N]⟩ : Shape)] (⟨1, ![S]⟩ : Shape) 0)
    (a : (⟨1, ![E]⟩ : Shape).Idx → α) (b : (⟨1, ![N]⟩ : Shape).Idx → α) (e : Fin E) :
    concatenate (⟨1, ![S]⟩ : Shape) 0 [⟨(⟨1, ![E]⟩ : Shape), a⟩, ⟨(⟨1, ![N]⟩ : Shape), b⟩] cc (ix1 (inl hS e)) = a (ix1 e) :=
  concatenate_pair_apply_left 0 a b cc (ix1 (inl hS e)) rfl (ix1 e) (fun d => by match d with | ⟨0, _⟩ => rfl)

/-- Two pieces concatenated along their one axis, read at a self edge's place `E + i`: the second piece at `i`. -/
theorem concat_inr (hS : E + N = S) {α : Type}
    (cc : Shape.Concatenates [(⟨1, ![E]⟩ : Shape), (⟨1, ![N]⟩ : Shape)] (⟨1, ![S]⟩ : Shape) 0)
    (a : (⟨1, ![E]⟩ : Shape).Idx → α) (b : (⟨1, ![N]⟩ : Shape).Idx → α) (i : Fin N) :
    concatenate (⟨1, ![S]⟩ : Shape) 0 [⟨(⟨1, ![E]⟩ : Shape), a⟩, ⟨(⟨1, ![N]⟩ : Shape), b⟩] cc (ix1 (inr hS i)) = b (ix1 i) :=
  concatenate_pair_apply_right 0 a b cc (ix1 (inr hS i)) rfl rfl (ix1 i)
    (fun d hd => by match d with | ⟨0, _⟩ => exact absurd rfl hd)
    (by show i.val + E = E + i.val; omega)

end Places

/-! ## The start word of a self edge -/

section Words

/-- The word of a small number, read signed, is the number. -/
theorem toInt_ofNat_small {i : ℕ} (hi : i < 2 ^ 31) : (BitVec.ofNat 32 i).toInt = (i : ℤ) := by
  rw [BitVec.toInt_eq_toNat_cond, BitVec.toNat_ofNat]
  have h32 : (2 : ℕ) ^ 32 = 4294967296 := by norm_num
  have h31 : (2 : ℕ) ^ 31 = 2147483648 := by norm_num
  rw [h32]; rw [h31] at hi
  have hm : i % 4294967296 = i := Nat.mod_eq_of_lt (by omega)
  rw [hm, if_pos (by omega)]

/-- A start word as the programs normalise it: a word that is negative when read signed has the table's height
    added, any other word is kept. -/
def wrapWord (zc hc w : BitVec 32) : BitVec 32 := Scalar.select (IntOp.cmpi .slt w zc) (IntOp.addi w hc) w

/-- The word of a small number is not negative, so it is kept. -/
theorem wrapWord_ofNat_small (hc : BitVec 32) {i : ℕ} (hi : i < 2 ^ 31) :
    wrapWord 0#32 hc (BitVec.ofNat 32 i) = BitVec.ofNat 32 i := by
  have hlt : (BitVec.ofNat 32 i).slt 0#32 = false := by
    rw [BitVec.slt_eq_decide, toInt_ofNat_small hi, BitVec.toInt_zero]
    exact decide_eq_false (by omega)
  unfold wrapWord Scalar.select IntOp.cmpi
  simp only [hlt, BitVec.ofBool_false]
  exact if_neg (by decide)

end Words

/-! ## The broadcasts read at an index -/

section Reads

variable {T C : ℕ} {α : Type}

/-- A vector made a one-column matrix. -/
theorem bcast_col_apply (h : (⟨1, ![T]⟩ : Shape).BroadcastsInDim (⟨2, ![T, 1]⟩ : Shape) ![0])
    (x : (⟨1, ![T]⟩ : Shape).Idx → α) (e : Fin T) (z : Fin 1) :
    broadcastInDim (⟨2, ![T, 1]⟩ : Shape) ![0] h x (ix2 e z) = x (ix1 e) := by
  refine broadcastInDim_apply ![0] h x (ix2 e z) (ix1 e) (fun a => ?_)
  match a with
  | ⟨0, _⟩ =>
    show e.val = if T = 1 then 0 else e.val
    by_cases h1 : T = 1
    · rw [if_pos h1]; have := e.isLt; omega
    · rw [if_neg h1]

/-- A one-column matrix repeated along its columns. -/
theorem bcast_cols_apply (h : (⟨2, ![T, 1]⟩ : Shape).BroadcastsInDim (⟨2, ![T, C]⟩ : Shape) ![0, 1])
    (x : (⟨2, ![T, 1]⟩ : Shape).Idx → α) (e : Fin T) (c : Fin C) :
    broadcastInDim (⟨2, ![T, C]⟩ : Shape) ![0, 1] h x (ix2 e c) = x (ix2 e ⟨0, Nat.one_pos⟩) := by
  refine broadcastInDim_apply ![0, 1] h x (ix2 e c) (ix2 e ⟨0, Nat.one_pos⟩) (fun a => ?_)
  match a with
  | ⟨0, _⟩ =>
    show e.val = if T = 1 then 0 else e.val
    by_cases h1 : T = 1
    · rw [if_pos h1]; have := e.isLt; omega
    · rw [if_neg h1]
  | ⟨1, _⟩ =>
    show (0 : ℕ) = if (1 : ℕ) = 1 then 0 else c.val
    rw [if_pos rfl]

/-- A vector made a one-column matrix and repeated along the columns: entry `(e, c)` is the vector's entry `e`. -/
theorem bcast_col_cols_apply (h₁ : (⟨1, ![T]⟩ : Shape).BroadcastsInDim (⟨2, ![T, 1]⟩ : Shape) ![0])
    (h₂ : (⟨2, ![T, 1]⟩ : Shape).BroadcastsInDim (⟨2, ![T, C]⟩ : Shape) ![0, 1])
    (x : (⟨1, ![T]⟩ : Shape).Idx → α) (e : Fin T) (c : Fin C) :
    broadcastInDim (⟨2, ![T, C]⟩ : Shape) ![0, 1] h₂ (broadcastInDim (⟨2, ![T, 1]⟩ : Shape) ![0] h₁ x) (ix2 e c) = x (ix1 e) := by
  rw [bcast_cols_apply, bcast_col_apply]

/-- The normalised start words read at an index. -/
theorem wrap_apply {s : Shape} (h : (⟨0, ![]⟩ : Shape).BroadcastsInDim s ![]) (zc hc : BitVec 32) (X : IVec s 32) (j : s.Idx) :
    select (cmpi .slt X (broadcastInDim s ![] h (constantI (⟨0, ![]⟩ : Shape) 32 zc)))
        (addi X (broadcastInDim s ![] h (constantI (⟨0, ![]⟩ : Shape) 32 hc))) X j
      = wrapWord zc hc (X j) := rfl

end Reads

/-! ## The law over functions -/

section Core

variable {N E C S : ℕ}

/-- THE LAW, over functions. The longer list's scatter-add of rows equals the edge list's plus the self term, when
    the longer list's start words and updates are the edge list's at an edge's place and node `i`'s at place `E + i`. -/
theorem core (hS : E + N = S)
    (dK : ScatterDims ⟨2, ![N, C]⟩ ⟨2, ![S, 1]⟩ ⟨2, ![S, C]⟩)
    (hK1 : dK.updateWindowDims = [1]) (hK2 : dK.insertedWindowDims = [0])
    (hK3 : dK.scatterDimsToOperandDims = [0]) (hK4 : dK.indexVectorDim = 1)
    (dR : ScatterDims ⟨2, ![N, C]⟩ ⟨2, ![E, 1]⟩ ⟨2, ![E, C]⟩)
    (hR1 : dR.updateWindowDims = [1]) (hR2 : dR.insertedWindowDims = [0])
    (hR3 : dR.scatterDimsToOperandDims = [0]) (hR4 : dR.indexVectorDim = 1)
    {w : ℕ} (xK xR : (⟨2, ![N, C]⟩ : Shape).Idx → EReal)
    (idxK : IVec ⟨2, ![S, 1]⟩ w) (idxR : IVec ⟨2, ![E, 1]⟩ w)
    (updK : (⟨2, ![S, C]⟩ : Shape).Idx → EReal) (updR : (⟨2, ![E, C]⟩ : Shape).Idx → EReal)
    (self : (⟨2, ![N, C]⟩ : Shape).Idx → EReal) (n : Fin N) (c : Fin C)
    (hx : xK (ix2 n c) = xR (ix2 n c))
    (hiL : ∀ e : Fin E, idxK (startAt (inl hS e)) = idxR (startAt e))
    (hiR : ∀ i : Fin N, (idxK (startAt (inr hS i))).toInt = (i.val : ℤ))
    (huL : ∀ e : Fin E, updK (ix2 (inl hS e) c) = updR (ix2 e c))
    (huR : ∀ i : Fin N, updK (ix2 (inr hS i) c) = self (ix2 i c)) :
    Ideal.hostScatterAdd dK xK idxK updK (ix2 n c)
      = Ideal.hostScatterAdd dR xR idxR updR (ix2 n c) + self (ix2 n c) := by
  rw [hostScatterAdd_rows_apply dK hK1 hK2 hK3 hK4, hostScatterAdd_rows_apply dR hR1 hR2 hR3 hR4, sum_aug hS, hx,
    ← add_assoc]
  have hself : (∑ i : Fin N, if (idxK (startAt (inr hS i))).toInt = (n.val : ℤ) then updK (ix2 (inr hS i) c) else 0)
      = self (ix2 n c) := by
    have hiff : ∀ i : Fin N, ((i.val : ℤ) = (n.val : ℤ)) ↔ n = i := fun i => by
      rw [Fin.ext_iff]; omega
    simp only [hiR, huR, hiff, Finset.sum_ite_eq, Finset.mem_univ, if_true]
  have hedges : (∑ e : Fin E, if (idxK (startAt (inl hS e))).toInt = (n.val : ℤ) then updK (ix2 (inl hS e) c) else 0)
      = ∑ e : Fin E, if (idxR (startAt e)).toInt = (n.val : ℤ) then updR (ix2 e c) else 0 :=
    Finset.sum_congr rfl fun e _ => by rw [hiL e, huL e]
  rw [hself, hedges]

/-- Equal start words read the same table row, whatever the lengths of the two lists. -/
theorem rowOf_congr {E' : ℕ} {w : ℕ} (hN : 0 < N) (idx : IVec ⟨2, ![E, 1]⟩ w) (idx' : IVec ⟨2, ![E', 1]⟩ w)
    (e : Fin E) (e' : Fin E') (h : idx (startAt e) = idx' (startAt e')) : rowOf hN idx e = rowOf hN idx' e' := by
  refine Fin.ext ?_
  show min (idx (startAt e)).toInt.toNat (N - 1) = min (idx' (startAt e')).toInt.toNat (N - 1)
  rw [h]

/-- A start word that is the word of a row number reads that row. -/
theorem rowOf_ofNat (hN : 0 < N) (hN31 : N ≤ 2 ^ 31) (idx : IVec ⟨2, ![E, 1]⟩ 32) (e : Fin E) (i : Fin N)
    (h : idx (startAt e) = BitVec.ofNat 32 i.val) : rowOf hN idx e = i := by
  have hi : i.val < 2 ^ 31 := lt_of_lt_of_le i.isLt hN31
  refine Fin.ext ?_
  show min (idx (startAt e)).toInt.toNat (N - 1) = i.val
  rw [h, toInt_ofNat_small hi]
  have := i.isLt
  omega

end Core

/-! ## The law over the programs' operations, at any extents -/

section Generic

variable {N E C S : ℕ}

/-- A scatter's dimension numbers say: each update row is one whole table row, placed by one start word. -/
structure RowScatter {T : ℕ} (d : ScatterDims ⟨2, ![N, C]⟩ ⟨2, ![T, 1]⟩ ⟨2, ![T, C]⟩) : Prop where
  h1 : d.updateWindowDims = [1]
  h2 : d.insertedWindowDims = [0]
  h3 : d.scatterDimsToOperandDims = [0]
  h4 : d.indexVectorDim = 1

/-- A gather's dimension numbers say: each result row is one whole table row, chosen by one start word. -/
structure RowGather {T : ℕ} (g : GatherDims ⟨2, ![N, C]⟩ ⟨2, ![T, 1]⟩ ⟨2, ![T, C]⟩) : Prop where
  ho : g.offsetDims = [1]
  hc : g.collapsedSliceDims = [0]
  hob : g.operandBatchingDims = []
  hsb : g.startIndicesBatchingDims = []
  hm : g.startIndexMap = [0]
  hv : g.indexVectorDim = 1
  hs : g.sliceSizes = ![1, C]

/-- The two pieces of the longer list, concatenated. -/
abbrev aug {α : Type} (cc : Shape.Concatenates [(⟨1, ![E]⟩ : Shape), (⟨1, ![N]⟩ : Shape)] (⟨1, ![S]⟩ : Shape) 0)
    (a : (⟨1, ![E]⟩ : Shape).Idx → α) (b : (⟨1, ![N]⟩ : Shape).Idx → α) : (⟨1, ![S]⟩ : Shape).Idx → α :=
  concatenate (⟨1, ![S]⟩ : Shape) 0 [⟨(⟨1, ![E]⟩ : Shape), a⟩, ⟨(⟨1, ![N]⟩ : Shape), b⟩] cc

theorem aug_inl (hS : E + N = S) {α : Type}
    (cc : Shape.Concatenates [(⟨1, ![E]⟩ : Shape), (⟨1, ![N]⟩ : Shape)] (⟨1, ![S]⟩ : Shape) 0)
    (a : (⟨1, ![E]⟩ : Shape).Idx → α) (b : (⟨1, ![N]⟩ : Shape).Idx → α) (e : Fin E) :
    aug cc a b (ix1 (inl hS e)) = a (ix1 e) := concat_inl hS cc a b e

theorem aug_inr (hS : E + N = S) {α : Type}
    (cc : Shape.Concatenates [(⟨1, ![E]⟩ : Shape), (⟨1, ![N]⟩ : Shape)] (⟨1, ![S]⟩ : Shape) 0)
    (a : (⟨1, ![E]⟩ : Shape).Idx → α) (b : (⟨1, ![N]⟩ : Shape).Idx → α) (i : Fin N) :
    aug cc a b (ix1 (inr hS i)) = b (ix1 i) := concat_inr hS cc a b i

/-- The start words normalised, as the programs spell it. -/
abbrev wrapV {s : Shape} (h : (⟨0, ![]⟩ : Shape).BroadcastsInDim s ![]) (hc : BitVec 32) (X : IVec s 32) : IVec s 32 :=
  select (cmpi .slt X (broadcastInDim s ![] h (constantI (⟨0, ![]⟩ : Shape) 32 0#32)))
    (addi X (broadcastInDim s ![] h (constantI (⟨0, ![]⟩ : Shape) 32 hc))) X

/-- The rows gathered by normalised start words, each times its weight: the updates a program scatters. -/
abbrev updates {T : ℕ} (g : GatherDims ⟨2, ![N, C]⟩ ⟨2, ![T, 1]⟩ ⟨2, ![T, C]⟩)
    (b1 : (⟨1, ![T]⟩ : Shape).BroadcastsInDim (⟨2, ![T, 1]⟩ : Shape) ![0])
    (b2 : (⟨2, ![T, 1]⟩ : Shape).BroadcastsInDim (⟨2, ![T, C]⟩ : Shape) ![0, 1])
    (b3 : (⟨0, ![]⟩ : Shape).BroadcastsInDim (⟨1, ![T]⟩ : Shape) ![]) (hc : BitVec 32)
    (P : FVec Ideal ⟨2, ![N, C]⟩ .f32) (X : IVec ⟨1, ![T]⟩ 32) (W : FVec Ideal ⟨1, ![T]⟩ .f32) :
    FVec Ideal ⟨2, ![T, C]⟩ .f32 :=
  mulf (Host.gather g P (broadcastInDim (⟨2, ![T, 1]⟩ : Shape) ![0] b1 (wrapV b3 hc X)))
    (broadcastInDim (⟨2, ![T, C]⟩ : Shape) ![0, 1] b2 (broadcastInDim (⟨2, ![T, 1]⟩ : Shape) ![0] b1 W))

/-- The updates read at `(e, c)`: the table at the row the normalised start word of `e` names, times `e`'s weight. -/
theorem updates_apply {T : ℕ} (hN : 0 < N) (g : GatherDims ⟨2, ![N, C]⟩ ⟨2, ![T, 1]⟩ ⟨2, ![T, C]⟩) (hg : RowGather g)
    (b1 : (⟨1, ![T]⟩ : Shape).BroadcastsInDim (⟨2, ![T, 1]⟩ : Shape) ![0])
    (b2 : (⟨2, ![T, 1]⟩ : Shape).BroadcastsInDim (⟨2, ![T, C]⟩ : Shape) ![0, 1])
    (b3 : (⟨0, ![]⟩ : Shape).BroadcastsInDim (⟨1, ![T]⟩ : Shape) ![]) (hc : BitVec 32)
    (P : FVec Ideal ⟨2, ![N, C]⟩ .f32) (X : IVec ⟨1, ![T]⟩ 32) (W : FVec Ideal ⟨1, ![T]⟩ .f32) (e : Fin T) (c : Fin C) :
    updates g b1 b2 b3 hc P X W (ix2 e c)
      = P (ix2 (rowOf hN (broadcastInDim (⟨2, ![T, 1]⟩ : Shape) ![0] b1 (wrapV b3 hc X)) e) c) * W (ix1 e) := by
  show Host.gather g P _ (ix2 e c) * broadcastInDim _ _ b2 (broadcastInDim _ _ b1 W) (ix2 e c) = _
  rw [gather_rows_apply g hN hg.ho hg.hc hg.hob hg.hsb hg.hm hg.hv hg.hs, bcast_col_cols_apply]

/-- The normalised start word of place `e`, in the one-column matrix the gather reads. -/
theorem start_apply {T : ℕ} (b1 : (⟨1, ![T]⟩ : Shape).BroadcastsInDim (⟨2, ![T, 1]⟩ : Shape) ![0])
    (b3 : (⟨0, ![]⟩ : Shape).BroadcastsInDim (⟨1, ![T]⟩ : Shape) ![]) (hc : BitVec 32) (X : IVec ⟨1, ![T]⟩ 32) (e : Fin T) :
    broadcastInDim (⟨2, ![T, 1]⟩ : Shape) ![0] b1 (wrapV b3 hc X) (startAt e) = wrapWord 0#32 hc (X (ix1 e)) :=
  (bcast_col_apply b1 _ e _).trans (wrap_apply b3 0#32 hc X (ix1 e))

end Generic

section Generic

variable {N E C S : ℕ}

/-- THE LAW over the programs' operations, at any extents `E + N = S` with `N` small enough for a row number to be a
    non-negative word: at every `(n, c)`, the scatter-add over the longer list is the scatter-add over the edges plus
    the node's own row times its weight. -/
theorem agg_generic (hS : E + N = S) (hN : 0 < N) (hN31 : N ≤ 2 ^ 31) (hc : BitVec 32) (zb : BitVec 32)
    (dK : ScatterDims ⟨2, ![N, C]⟩ ⟨2, ![S, 1]⟩ ⟨2, ![S, C]⟩) (hdK : RowScatter dK)
    (gK : GatherDims ⟨2, ![N, C]⟩ ⟨2, ![S, 1]⟩ ⟨2, ![S, C]⟩) (hgK : RowGather gK)
    (dR : ScatterDims ⟨2, ![N, C]⟩ ⟨2, ![E, 1]⟩ ⟨2, ![E, C]⟩) (hdR : RowScatter dR)
    (gR : GatherDims ⟨2, ![N, C]⟩ ⟨2, ![E, 1]⟩ ⟨2, ![E, C]⟩) (hgR : RowGather gR)
    (cc : Shape.Concatenates [(⟨1, ![E]⟩ : Shape), (⟨1, ![N]⟩ : Shape)] (⟨1, ![S]⟩ : Shape) 0)
    (bK0 : (⟨0, ![]⟩ : Shape).BroadcastsInDim (⟨2, ![N, C]⟩ : Shape) ![])
    (bK1 : (⟨1, ![S]⟩ : Shape).BroadcastsInDim (⟨2, ![S, 1]⟩ : Shape) ![0])
    (bK2 : (⟨2, ![S, 1]⟩ : Shape).BroadcastsInDim (⟨2, ![S, C]⟩ : Shape) ![0, 1])
    (bK3 : (⟨0, ![]⟩ : Shape).BroadcastsInDim (⟨1, ![S]⟩ : Shape) ![])
    (bR0 : (⟨0, ![]⟩ : Shape).BroadcastsInDim (⟨2, ![N, C]⟩ : Shape) ![])
    (bR1 : (⟨1, ![E]⟩ : Shape).BroadcastsInDim (⟨2, ![E, 1]⟩ : Shape) ![0])
    (bR2 : (⟨2, ![E, 1]⟩ : Shape).BroadcastsInDim (⟨2, ![E, C]⟩ : Shape) ![0, 1])
    (bR3 : (⟨0, ![]⟩ : Shape).BroadcastsInDim (⟨1, ![E]⟩ : Shape) ![])
    (bN1 : (⟨1, ![N]⟩ : Shape).BroadcastsInDim (⟨2, ![N, 1]⟩ : Shape) ![0])
    (bN2 : (⟨2, ![N, 1]⟩ : Shape).BroadcastsInDim (⟨2, ![N, C]⟩ : Shape) ![0, 1])
    (P : FVec Ideal ⟨2, ![N, C]⟩ .f32) (src dst : IVec ⟨1, ![E]⟩ 32)
    (en : FVec Ideal ⟨1, ![E]⟩ .f32) (sn : FVec Ideal ⟨1, ![N]⟩ .f32) (n : Fin N) (c : Fin C) :
    Host.scatterAdd (F := Ideal) dK
        (broadcastInDim (⟨2, ![N, C]⟩ : Shape) ![] bK0 (constant (F := Ideal) (⟨0, ![]⟩ : Shape) .f32 zb))
        (broadcastInDim (⟨2, ![S, 1]⟩ : Shape) ![0] bK1 (aug cc dst (iotaInDim (⟨1, ![N]⟩ : Shape) 32 0)))
        (updates gK bK1 bK2 bK3 hc P (aug cc src (iotaInDim (⟨1, ![N]⟩ : Shape) 32 0)) (aug cc en sn)) (ix2 n c)
      = addf (Host.scatterAdd (F := Ideal) dR
                (broadcastInDim (⟨2, ![N, C]⟩ : Shape) ![] bR0 (constant (F := Ideal) (⟨0, ![]⟩ : Shape) .f32 zb))
                (broadcastInDim (⟨2, ![E, 1]⟩ : Shape) ![0] bR1 dst) (updates gR bR1 bR2 bR3 hc P src en))
          (mulf P (broadcastInDim (⟨2, ![N, C]⟩ : Shape) ![0, 1] bN2 (broadcastInDim (⟨2, ![N, 1]⟩ : Shape) ![0] bN1 sn)))
          (ix2 n c) := by
  have hi31 : ∀ i : Fin N, i.val < 2 ^ 31 := fun i => lt_of_lt_of_le i.isLt hN31
  refine core hS dK hdK.h1 hdK.h2 hdK.h3 hdK.h4 dR hdR.h1 hdR.h2 hdR.h3 hdR.h4 _ _ _ _ _ _
    (mulf P (broadcastInDim (⟨2, ![N, C]⟩ : Shape) ![0, 1] bN2 (broadcastInDim (⟨2, ![N, 1]⟩ : Shape) ![0] bN1 sn)))
    n c rfl ?_ ?_ ?_ ?_
  · -- an edge's end word
    intro e
    exact (bcast_col_apply bK1 _ (inl hS e) _).trans
      ((concat_inl hS cc dst _ e).trans (bcast_col_apply bR1 dst e _).symm)
  · -- a self edge's end word is the word of its node
    intro i
    have h : broadcastInDim (⟨2, ![S, 1]⟩ : Shape) ![0] bK1 (aug cc dst (iotaInDim (⟨1, ![N]⟩ : Shape) 32 0))
        (startAt (inr hS i)) = BitVec.ofNat 32 i.val :=
      (bcast_col_apply bK1 _ (inr hS i) _).trans (concat_inr hS cc dst _ i)
    rw [h, toInt_ofNat_small (hi31 i)]
  · -- an edge's update
    intro e
    have hstart : broadcastInDim (⟨2, ![S, 1]⟩ : Shape) ![0] bK1
          (wrapV bK3 hc (aug cc src (iotaInDim (⟨1, ![N]⟩ : Shape) 32 0))) (startAt (inl hS e))
        = broadcastInDim (⟨2, ![E, 1]⟩ : Shape) ![0] bR1 (wrapV bR3 hc src) (startAt e) := by
      rw [start_apply, start_apply, aug_inl hS]
    rw [updates_apply hN gK hgK, updates_apply hN gR hgR, rowOf_congr hN _ _ (inl hS e) e hstart, aug_inl hS]
  · -- a self edge's update is its node's row times the node's weight
    intro i
    have hstart : broadcastInDim (⟨2, ![S, 1]⟩ : Shape) ![0] bK1
          (wrapV bK3 hc (aug cc src (iotaInDim (⟨1, ![N]⟩ : Shape) 32 0))) (startAt (inr hS i))
        = BitVec.ofNat 32 i.val := by
      rw [start_apply, aug_inr hS]
      exact wrapWord_ofNat_small hc (hi31 i)
    rw [updates_apply hN gK hgK, rowOf_ofNat hN hN31 _ (inr hS i) i hstart, aug_inr hS]
    show P (ix2 i c) * sn (ix1 i) = P (ix2 i c) * broadcastInDim _ _ bN2 (broadcastInDim _ _ bN1 sn) (ix2 i c)
    rw [bcast_col_cols_apply]

end Generic

/-! ## The two layers of the programs -/

section Final

/-- The first layer (64 columns): the aggregation over the edge list with the self edges appended is the aggregation over the edges plus each node's own row times its weight, as whole arrays. -/
theorem agg64 [Cert.KernelIdeal.Facts₀] [Cert.ReferenceIdeal.Facts₀]
    (P : FVec Ideal Cert.KernelIdeal.S100000x64 .f32) (src dst : IVec Cert.KernelIdeal.S3200000 32)
    (en : FVec Ideal Cert.KernelIdeal.S3200000 .f32) (sn : FVec Ideal Cert.KernelIdeal.S100000 .f32) :
    Host.scatterAdd (F := Ideal) Cert.KernelIdeal.scatter_S100000x64_S3300000x1_S3300000x64_1_0_0_1
        (broadcastInDim Cert.KernelIdeal.S100000x64 ![] Cert.KernelIdeal.Facts₀.bcast_S_S100000x64 (constant (F := Ideal) Cert.KernelIdeal.S_ .f32 0x00000000#32))
        (broadcastInDim Cert.KernelIdeal.S3300000x1 ![0] Cert.KernelIdeal.Facts₀.bcast_S3300000_S3300000x1_0 (concatenate Cert.KernelIdeal.S3300000 0 [⟨Cert.KernelIdeal.S3200000, dst⟩, ⟨Cert.KernelIdeal.S100000, iotaInDim Cert.KernelIdeal.S100000 32 0⟩] Cert.KernelIdeal.Facts₀.concatenates_S3200000_S100000_S3300000_d0))
        (mulf (Host.gather Cert.KernelIdeal.gather_S100000x64_S3300000x1_S3300000x64_1_0_n_n_0_1_164 P
                (broadcastInDim Cert.KernelIdeal.S3300000x1 ![0] Cert.KernelIdeal.Facts₀.bcast_S3300000_S3300000x1_0
                  (select (cmpi .slt (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0) (broadcastInDim Cert.KernelIdeal.S3300000 ![] Cert.KernelIdeal.Facts₀.bcast_S_S3300000 (constantI Cert.KernelIdeal.S_ 32 0#32)))
                    (addi (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0) (broadcastInDim Cert.KernelIdeal.S3300000 ![] Cert.KernelIdeal.Facts₀.bcast_S_S3300000 (constantI Cert.KernelIdeal.S_ 32 100000#32)))
                    (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0))))
              (broadcastInDim Cert.KernelIdeal.S3300000x64 ![0, 1] Cert.KernelIdeal.Facts₀.bcast_S3300000x1_S3300000x64_0_1
                (broadcastInDim Cert.KernelIdeal.S3300000x1 ![0] Cert.KernelIdeal.Facts₀.bcast_S3300000_S3300000x1_0 (concatenate Cert.KernelIdeal.S3300000 0 [⟨Cert.KernelIdeal.S3200000, en⟩, ⟨Cert.KernelIdeal.S100000, sn⟩] Cert.KernelIdeal.Facts₀.concatenates_S3200000_S100000_S3300000_d0))))
      = addf (Host.scatterAdd (F := Ideal) Cert.ReferenceIdeal.scatter_S100000x64_S3200000x1_S3200000x64_1_0_0_1
                (broadcastInDim Cert.ReferenceIdeal.S100000x64 ![] Cert.ReferenceIdeal.Facts₀.bcast_S_S100000x64 (constant (F := Ideal) Cert.ReferenceIdeal.S_ .f32 0x00000000#32))
                (broadcastInDim Cert.ReferenceIdeal.S3200000x1 ![0] Cert.ReferenceIdeal.Facts₀.bcast_S3200000_S3200000x1_0 dst)
                (mulf (Host.gather Cert.ReferenceIdeal.gather_S100000x64_S3200000x1_S3200000x64_1_0_n_n_0_1_164 P
                        (broadcastInDim Cert.ReferenceIdeal.S3200000x1 ![0] Cert.ReferenceIdeal.Facts₀.bcast_S3200000_S3200000x1_0
                          (select (cmpi .slt src (broadcastInDim Cert.ReferenceIdeal.S3200000 ![] Cert.ReferenceIdeal.Facts₀.bcast_S_S3200000 (constantI Cert.ReferenceIdeal.S_ 32 0#32)))
                            (addi src (broadcastInDim Cert.ReferenceIdeal.S3200000 ![] Cert.ReferenceIdeal.Facts₀.bcast_S_S3200000 (constantI Cert.ReferenceIdeal.S_ 32 100000#32)))
                            src)))
                      (broadcastInDim Cert.ReferenceIdeal.S3200000x64 ![0, 1] Cert.ReferenceIdeal.Facts₀.bcast_S3200000x1_S3200000x64_0_1
                        (broadcastInDim Cert.ReferenceIdeal.S3200000x1 ![0] Cert.ReferenceIdeal.Facts₀.bcast_S3200000_S3200000x1_0 en))))
          (mulf P (broadcastInDim Cert.ReferenceIdeal.S100000x64 ![0, 1] Cert.ReferenceIdeal.Facts₀.bcast_S100000x1_S100000x64_0_1
                    (broadcastInDim Cert.ReferenceIdeal.S100000x1 ![0] Cert.ReferenceIdeal.Facts₀.bcast_S100000_S100000x1_0 sn))) := by
  funext j
  obtain ⟨n, c, rfl⟩ : ∃ n c, j = ix2 n c := ⟨j 0, j 1, eq_ix2 j⟩
  exact agg_generic (N := 100000) (E := 3200000) (C := 64) (S := 3300000) (by norm_num) (by norm_num) (by norm_num)
    100000#32 0x00000000#32
    Cert.KernelIdeal.scatter_S100000x64_S3300000x1_S3300000x64_1_0_0_1 ⟨rfl, rfl, rfl, rfl⟩
    Cert.KernelIdeal.gather_S100000x64_S3300000x1_S3300000x64_1_0_n_n_0_1_164 ⟨rfl, rfl, rfl, rfl, rfl, rfl, rfl⟩
    Cert.ReferenceIdeal.scatter_S100000x64_S3200000x1_S3200000x64_1_0_0_1 ⟨rfl, rfl, rfl, rfl⟩
    Cert.ReferenceIdeal.gather_S100000x64_S3200000x1_S3200000x64_1_0_n_n_0_1_164 ⟨rfl, rfl, rfl, rfl, rfl, rfl, rfl⟩
    Cert.KernelIdeal.Facts₀.concatenates_S3200000_S100000_S3300000_d0
    Cert.KernelIdeal.Facts₀.bcast_S_S100000x64 Cert.KernelIdeal.Facts₀.bcast_S3300000_S3300000x1_0 Cert.KernelIdeal.Facts₀.bcast_S3300000x1_S3300000x64_0_1 Cert.KernelIdeal.Facts₀.bcast_S_S3300000
    Cert.ReferenceIdeal.Facts₀.bcast_S_S100000x64 Cert.ReferenceIdeal.Facts₀.bcast_S3200000_S3200000x1_0 Cert.ReferenceIdeal.Facts₀.bcast_S3200000x1_S3200000x64_0_1 Cert.ReferenceIdeal.Facts₀.bcast_S_S3200000
    Cert.ReferenceIdeal.Facts₀.bcast_S100000_S100000x1_0 Cert.ReferenceIdeal.Facts₀.bcast_S100000x1_S100000x64_0_1
    P src dst en sn n c

/-- The second layer (2 columns): the same law. -/
theorem agg2 [Cert.KernelIdeal.Facts₀] [Cert.ReferenceIdeal.Facts₀]
    (P : FVec Ideal Cert.KernelIdeal.S100000x2 .f32) (src dst : IVec Cert.KernelIdeal.S3200000 32)
    (en : FVec Ideal Cert.KernelIdeal.S3200000 .f32) (sn : FVec Ideal Cert.KernelIdeal.S100000 .f32) :
    Host.scatterAdd (F := Ideal) Cert.KernelIdeal.scatter_S100000x2_S3300000x1_S3300000x2_1_0_0_1
        (broadcastInDim Cert.KernelIdeal.S100000x2 ![] Cert.KernelIdeal.Facts₀.bcast_S_S100000x2 (constant (F := Ideal) Cert.KernelIdeal.S_ .f32 0x00000000#32))
        (broadcastInDim Cert.KernelIdeal.S3300000x1 ![0] Cert.KernelIdeal.Facts₀.bcast_S3300000_S3300000x1_0 (concatenate Cert.KernelIdeal.S3300000 0 [⟨Cert.KernelIdeal.S3200000, dst⟩, ⟨Cert.KernelIdeal.S100000, iotaInDim Cert.KernelIdeal.S100000 32 0⟩] Cert.KernelIdeal.Facts₀.concatenates_S3200000_S100000_S3300000_d0))
        (mulf (Host.gather Cert.KernelIdeal.gather_S100000x2_S3300000x1_S3300000x2_1_0_n_n_0_1_12 P
                (broadcastInDim Cert.KernelIdeal.S3300000x1 ![0] Cert.KernelIdeal.Facts₀.bcast_S3300000_S3300000x1_0
                  (select (cmpi .slt (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0) (broadcastInDim Cert.KernelIdeal.S3300000 ![] Cert.KernelIdeal.Facts₀.bcast_S_S3300000 (constantI Cert.KernelIdeal.S_ 32 0#32)))
                    (addi (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0) (broadcastInDim Cert.KernelIdeal.S3300000 ![] Cert.KernelIdeal.Facts₀.bcast_S_S3300000 (constantI Cert.KernelIdeal.S_ 32 100000#32)))
                    (concatenate Cert.KernelIdeal.S3300000 0 [⟨Cert.KernelIdeal.S3200000, src⟩, ⟨Cert.KernelIdeal.S100000, iotaInDim Cert.KernelIdeal.S100000 32 0⟩] Cert.KernelIdeal.Facts₀.concatenates_S3200000_S100000_S3300000_d0))))
              (broadcastInDim Cert.KernelIdeal.S3300000x2 ![0, 1] Cert.KernelIdeal.Facts₀.bcast_S3300000x1_S3300000x2_0_1
                (broadcastInDim Cert.KernelIdeal.S3300000x1 ![0] Cert.KernelIdeal.Facts₀.bcast_S3300000_S3300000x1_0 (concatenate Cert.KernelIdeal.S3300000 0 [⟨Cert.KernelIdeal.S3200000, en⟩, ⟨Cert.KernelIdeal.S100000, sn⟩] Cert.KernelIdeal.Facts₀.concatenates_S3200000_S100000_S3300000_d0))))
      = addf (Host.scatterAdd (F := Ideal) Cert.ReferenceIdeal.scatter_S100000x2_S3200000x1_S3200000x2_1_0_0_1
                (broadcastInDim Cert.ReferenceIdeal.S100000x2 ![] Cert.ReferenceIdeal.Facts₀.bcast_S_S100000x2 (constant (F := Ideal) Cert.ReferenceIdeal.S_ .f32 0x00000000#32))
                (broadcastInDim Cert.ReferenceIdeal.S3200000x1 ![0] Cert.ReferenceIdeal.Facts₀.bcast_S3200000_S3200000x1_0 dst)
                (mulf (Host.gather Cert.ReferenceIdeal.gather_S100000x2_S3200000x1_S3200000x2_1_0_n_n_0_1_12 P
                        (broadcastInDim Cert.ReferenceIdeal.S3200000x1 ![0] Cert.ReferenceIdeal.Facts₀.bcast_S3200000_S3200000x1_0
                          (select (cmpi .slt src (broadcastInDim Cert.ReferenceIdeal.S3200000 ![] Cert.ReferenceIdeal.Facts₀.bcast_S_S3200000 (constantI Cert.ReferenceIdeal.S_ 32 0#32)))
                            (addi src (broadcastInDim Cert.ReferenceIdeal.S3200000 ![] Cert.ReferenceIdeal.Facts₀.bcast_S_S3200000 (constantI Cert.ReferenceIdeal.S_ 32 100000#32)))
                            src)))
                      (broadcastInDim Cert.ReferenceIdeal.S3200000x2 ![0, 1] Cert.ReferenceIdeal.Facts₀.bcast_S3200000x1_S3200000x2_0_1
                        (broadcastInDim Cert.ReferenceIdeal.S3200000x1 ![0] Cert.ReferenceIdeal.Facts₀.bcast_S3200000_S3200000x1_0 en))))
          (mulf P (broadcastInDim Cert.ReferenceIdeal.S100000x2 ![0, 1] Cert.ReferenceIdeal.Facts₀.bcast_S100000x1_S100000x2_0_1
                    (broadcastInDim Cert.ReferenceIdeal.S100000x1 ![0] Cert.ReferenceIdeal.Facts₀.bcast_S100000_S100000x1_0 sn))) := by
  funext j
  obtain ⟨n, c, rfl⟩ : ∃ n c, j = ix2 n c := ⟨j 0, j 1, eq_ix2 j⟩
  exact agg_generic (N := 100000) (E := 3200000) (C := 2) (S := 3300000) (by norm_num) (by norm_num) (by norm_num)
    100000#32 0x00000000#32
    Cert.KernelIdeal.scatter_S100000x2_S3300000x1_S3300000x2_1_0_0_1 ⟨rfl, rfl, rfl, rfl⟩
    Cert.KernelIdeal.gather_S100000x2_S3300000x1_S3300000x2_1_0_n_n_0_1_12 ⟨rfl, rfl, rfl, rfl, rfl, rfl, rfl⟩
    Cert.ReferenceIdeal.scatter_S100000x2_S3200000x1_S3200000x2_1_0_0_1 ⟨rfl, rfl, rfl, rfl⟩
    Cert.ReferenceIdeal.gather_S100000x2_S3200000x1_S3200000x2_1_0_n_n_0_1_12 ⟨rfl, rfl, rfl, rfl, rfl, rfl, rfl⟩
    Cert.KernelIdeal.Facts₀.concatenates_S3200000_S100000_S3300000_d0
    Cert.KernelIdeal.Facts₀.bcast_S_S100000x2 Cert.KernelIdeal.Facts₀.bcast_S3300000_S3300000x1_0 Cert.KernelIdeal.Facts₀.bcast_S3300000x1_S3300000x2_0_1 Cert.KernelIdeal.Facts₀.bcast_S_S3300000
    Cert.ReferenceIdeal.Facts₀.bcast_S_S100000x2 Cert.ReferenceIdeal.Facts₀.bcast_S3200000_S3200000x1_0 Cert.ReferenceIdeal.Facts₀.bcast_S3200000x1_S3200000x2_0_1 Cert.ReferenceIdeal.Facts₀.bcast_S_S3200000
    Cert.ReferenceIdeal.Facts₀.bcast_S100000_S100000x1_0 Cert.ReferenceIdeal.Facts₀.bcast_S100000x1_S100000x2_0_1
    P src dst en sn n c

end Final

end Cert.SelfLoops

end
-- ==== Proof.RefAgg.lean ====
/-
  The reference program's aggregation stages in the kernel's terms.

  The reference adds, at node `n`, the scatter-add of the gathered and weighted rows over the edge list and the
  node's own row times its weight. The kernel program takes one scatter-add over the edge list with one self row
  per node appended. These are equal (the law of `SelfLoops`), for the first layer's table of 64 columns and the
  second layer's of 2; the shared lists of words and weights stay unopened on both sides.
-/
import proofs.«125274_j19645180412674_2_alg».proof.Proof.HostSpec
import proofs.«125274_j19645180412674_2_alg».proof.Proof.SelfLoops

noncomputable section

namespace Cert.Bridge

open Idealize.ShloMosaic
open Cert.ReferenceIdeal.Read

/-- The first layer: the reference's aggregation of its transform is the kernel program's aggregation of it. -/
theorem ref_agg1 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) :
    val_main_v45 (F := Ideal) x0 x1 x2 = aggK64 x1 (val_main_v28 (F := Ideal) x0 x2) :=
  (Cert.SelfLoops.agg64 (val_main_v28 (F := Ideal) x0 x2) (val_main_v1 (F := Ideal) x1) (val_main_v3 (F := Ideal) x1)
    (val_main_v25 (F := Ideal) x1) (val_main_v27 (F := Ideal) x1)).symm

/-- The second layer, likewise. -/
theorem ref_agg2 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (x4 : (⟨Cert.ReferenceIdeal.S64x2, .f32⟩ : BufTy).Contents (Elt Ideal)) :
    val_main_v67 (F := Ideal) x0 x1 x2 x3 x4 = aggK2 x1 (val_main_v50 (F := Ideal) x0 x1 x2 x3 x4) :=
  (Cert.SelfLoops.agg2 (val_main_v50 (F := Ideal) x0 x1 x2 x3 x4) (val_main_v1 (F := Ideal) x1) (val_main_v3 (F := Ideal) x1)
    (val_main_v25 (F := Ideal) x1) (val_main_v27 (F := Ideal) x1)).symm

end Cert.Bridge

end
-- ==== Proof.RefValue.lean ====
/-
  The reference program's result is the same function of the arguments as the kernel program's.

  Stage by stage from the last: the second bias, the second aggregation (the self-row law), the second product,
  the first bias and rectifier, the first aggregation (the law again), the first product.
-/
import proofs.«125274_j19645180412674_2_alg».proof.Proof.NetSpec
import proofs.«125274_j19645180412674_2_alg».proof.Proof.RefDense
import proofs.«125274_j19645180412674_2_alg».proof.Proof.RefAgg

noncomputable section

namespace Cert.Bridge

open Idealize.ShloMosaic
open Cert.ReferenceIdeal.Read

theorem ref_value (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
    (x4 : (⟨Cert.ReferenceIdeal.S64x2, .f32⟩ : BufTy).Contents (Elt Ideal)) (x5 : (⟨Cert.ReferenceIdeal.S2, .f32⟩ : BufTy).Contents (Elt Ideal)) :
    val_main_v70 (F := Ideal) x0 x1 x2 x3 x4 x5 = kernelOut x0 x1 x2 x3 x4 x5 := by
  unfold kernelOut
  rw [ref_bias2, ref_agg2, ref_prod2, ref_relu, ref_agg1, ref_prod1]

end Cert.Bridge

end
-- ==== Proof.lean ====
/-
  The certificate of a two-layer graph convolution: a Pallas program of four pipelined regions (two products, two
  bias passes) with the gathers and scatter-adds on the host between them, against a plain reference.

  Per layer the reference computes, at node `n` and column `c`,
  `Σ_{e : dst e = n} P (src e, c) · w e  +  P (n, c) · u n  +  b c`,
  with `P` the node features times the layer's weights, `w` the per-edge and `u` the per-node normalisation. The
  kernel program appends one self row `n → n` of weight `u n` per node to the edge list and takes the one sum over
  the longer list, then adds `b c` (and rectifies, in the first layer) in a region. The long sum splits into the
  edges' part and the self rows' part, and the self rows' part is the single term `P (n, c) · u n`: only
  associativity and commutativity of addition on the extended reals are used, so the precondition is never opened.
  The words, degrees and normalisations both programs compute from the edge list by the same lines are carried as
  the reference's own stages and never unfolded.

  The kernel's frames are the generated ones; the reference's frame is its generated run with the result dropped;
  the idealization rewrote nothing, so `preserves` is trivial.
-/
import proofs.«125274_j19645180412674_2_alg».proof.Defs
import proofs.«125274_j19645180412674_2_alg».proof.Proof.Gen.Kernel
import proofs.«125274_j19645180412674_2_alg».proof.Proof.Gen.Kernel.Skeleton
import proofs.«125274_j19645180412674_2_alg».proof.Proof.Gen.Kernel.Launch
import proofs.«125274_j19645180412674_2_alg».proof.Proof.Gen.Kernel.Points
import proofs.«125274_j19645180412674_2_alg».proof.Proof.Gen.Kernel.Frame
import proofs.«125274_j19645180412674_2_alg».proof.Proof.Gen.KernelIdeal
import proofs.«125274_j19645180412674_2_alg».proof.Proof.Gen.KernelIdeal.Skeleton
import proofs.«125274_j19645180412674_2_alg».proof.Proof.Gen.KernelIdeal.Launch
import proofs.«125274_j19645180412674_2_alg».proof.Proof.Gen.KernelIdeal.Points
import proofs.«125274_j19645180412674_2_alg».proof.Proof.Gen.KernelIdeal.Frame
import proofs.«125274_j19645180412674_2_alg».proof.Proof.Gen.ReferenceIdeal
import proofs.«125274_j19645180412674_2_alg».proof.Proof.Gen.ReferenceIdeal.Run
import proofs.«125274_j19645180412674_2_alg».proof.Proof.Gen.ReferenceIdeal.Read
import proofs.«125274_j19645180412674_2_alg».proof.Proof.Gen.Pre_finite_inputs
import proofs.«125274_j19645180412674_2_alg».proof.Proof.KernelRun
import proofs.«125274_j19645180412674_2_alg».proof.Proof.KernelValue
import proofs.«125274_j19645180412674_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end with the network's output `kernelOut` of the arguments' launch contents: the kernel
    program by reading its fold of segments (`kernel_value`), the reference by its stages (`ref_value`) at arguments
    that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_value m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v70_eq, Cert.Bridge.ref_value, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
